-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S4096x128 .f32) (main_arg1 : FVec F S4096x4096 .f32) (main_arg2 : FVec F S4096x4096 .f32) (main_arg3 : FVec F S128x128 .f32) (main_arg4 : FVec F S128x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S1024x1024 : Shape := ⟨2, ![1024, 1024]⟩
abbrev S1024x128 : Shape := ⟨2, ![1024, 128]⟩

abbrev nBuf : Space → Nat
  | .hbm => 6
  | .vmem => 12
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x4096, .f32⟩
  | .hbm, ⟨3, _⟩ => ⟨S128x128, .f32⟩
  | .hbm, ⟨4, _⟩ => ⟨S128x128, .f32⟩
  | .hbm, ⟨5, _⟩ => ⟨S4096x128, .f32⟩
  | .local _ .vmem, ⟨0, _⟩ => ⟨S4096x128, .f32⟩
  | .local _ .vmem, ⟨1, _⟩ => ⟨S128x128, .f32⟩
  | .local _ .vmem, ⟨2, _⟩ => ⟨S128x128, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S4096x128, .f32⟩
  | .local _ .vmem, ⟨11, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c1024_i32_13 : BitVec 32 := 1024#32
  let v23 : BitVec 32 := Scalar.muli arg1 c1024_i32_13
  let v24 : Index := Scalar.indexCast v23
  let c0_14 : Index := 0#32
  ![v24.toNat, 0]
def k0_off2 (i : grid0.Coords) : Fin 2 → Nat :=
  let arg1 : BitVec 32 := BitVec.ofNat 32 (i 1).val
  let c1024_i32 : BitVec 32 := 1024#32
  let v6 : BitVec 32 := Scalar.muli arg1 c1024_i32
  let v7 : Index := Scalar.indexCast v6
  let c0 : Index := 0#32
  ![v7.toNat, 0]
def k0_cond4 (i : grid0.Coords) : BitVec 1 :=
  let arg1 : BitVec 32 := BitVec.ofNat 32 (i 1).val
  let c3_i32_11 : BitVec 32 := 3#32
  let v20 : BitVec 1 := Scalar.cmpi .eq arg1 c3_i32_11
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  h_S1024x128 : 0 < S1024x128.numel
  inb_S128x128_S128x128_0_0 : ∀ a, (![0, 0] : Fin 2 → Nat) a + S128x128.size a ≤ S128x128.size a
  h_S128x128 : 0 < S128x128.numel
  shapeCasts_S1024x128_S1024x128 : S1024x128.ShapeCasts S1024x128
  inb_S1024x128_S1024x128_0_0 : ∀ a, (![0, 0] : Fin 2 → Nat) a + S1024x128.size a ≤ S1024x128.size a
  inb_S1024x1024_S1024x1024_0_0 : ∀ a, (![0, 0] : Fin 2 → Nat) a + S1024x1024.size a ≤ S1024x1024.size a
  h_S1024x1024 : 0 < S1024x1024.numel
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  hrank0 : 0 < grid0.rank
  k0_off1_inb : ∀ i : grid0.Coords, ∀ (k0_h1 : k0_cond1 i = 1#1), ∀ a, (k0_off1 i) a + S1024x128.size a ≤ S4096x128.size a
  k0_off2_inb : ∀ i : grid0.Coords, ∀ a, (k0_off2 i) a + S1024x128.size a ≤ S4096x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .f32 = 32 ∨ (Rect.block (s := S4096x4096) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S4096x128.size a
  hwx0_5 : ∀ i : grid0.Coords, EltTy.bits .f32 = 32 ∨ (Rect.block (s := S4096x128) S1024x128.size (cc0_transform_5 i) (hinb0_5 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x4096, .f32⟩
  | .hbm, ⟨3, _⟩ => ⟨S128x128, .f32⟩
  | .hbm, ⟨4, _⟩ => ⟨S128x128, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S_, .f32⟩
  | .hbm, ⟨11, _⟩ => ⟨S4096x128, .f32⟩
  | .hbm, ⟨12, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.CasesW.lean ====
/-
  The grid is 4 × 4: point t = 4·i + k handles block row i of the result (1024 rows) and chunk k of the
  contraction axis (1024 of its 4096 indices). The body has four conditionals on (i, k):
    i = 0  — the two projections' rows of chunk k are computed and kept in scratch,
    k = 0  — the accumulator is zeroed,
    k < 3  — the chunk's partial product is added to the accumulator,
    k = 3  — the accumulator plus the last partial product, clamped below at zero, is the result block.
  Here: the conditions in closed form over the sixteen points, the row offset of chunk k, where the result
  window is idle or written back, and the region invariant with the three scratch buffers named.
-/
import proofs.«105109_g26044681683717_cont_sun_m_400_16_alg».proof.Proof.Gen.Kernel.Frame
import proofs.«105109_g26044681683717_cont_sun_m_400_16_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- i = 0: the projections of chunk k are computed at this point. -/
abbrev cond1 (i : grid0.Coords) : Prop := k0_cond1 i = 1#1
/-- k = 0: the accumulator is zeroed at this point. -/
abbrev cond2 (i : grid0.Coords) : Prop := (Scalar.cmpi .ne (Scalar.extui (Scalar.cmpi .eq (BitVec.ofNat 32 (i 1).val) 0#32)) 0#32) = 1#1
/-- k < 3: the partial product is added into the accumulator. -/
abbrev cond3 (i : grid0.Coords) : Prop := (Scalar.cmpi .ne (Scalar.extui (Scalar.cmpi .slt (BitVec.ofNat 32 (i 1).val) 3#32)) 0#32) = 1#1
/-- k = 3: the result block is written. -/
abbrev cond4 (i : grid0.Coords) : Prop := k0_cond4 i = 1#1

theorem hcond1 : ∀ t : Fin cfg0.N, cond1 (grid0.coords t) ↔ t.val < 4 :=
  (by decide +kernel : ∀ t : Fin grid0.N, cond1 (grid0.coords t) ↔ t.val < 4)
theorem hcond2 : ∀ t : Fin cfg0.N, cond2 (grid0.coords t) ↔ t.val % 4 = 0 :=
  (by decide +kernel : ∀ t : Fin grid0.N, cond2 (grid0.coords t) ↔ t.val % 4 = 0)
theorem hcond3 : ∀ t : Fin cfg0.N, cond3 (grid0.coords t) ↔ t.val % 4 < 3 :=
  (by decide +kernel : ∀ t : Fin grid0.N, cond3 (grid0.coords t) ↔ t.val % 4 < 3)
theorem hcond4 : ∀ t : Fin cfg0.N, cond4 (grid0.coords t) ↔ t.val % 4 = 3 :=
  (by decide +kernel : ∀ t : Fin grid0.N, cond4 (grid0.coords t) ↔ t.val % 4 = 3)

/-- Chunk k of the contraction axis is rows [1024·k, 1024·k + 1024) of a projection. -/
theorem hoff1 : ∀ t : Fin cfg0.N, k0_off1 (grid0.coords t) = ![1024 * (t.val % 4), 0] :=
  (by decide +kernel : ∀ t : Fin grid0.N, k0_off1 (grid0.coords t) = ![1024 * (t.val % 4), 0])
theorem hoff2 : ∀ t : Fin cfg0.N, k0_off2 (grid0.coords t) = ![1024 * (t.val % 4), 0] :=
  (by decide +kernel : ∀ t : Fin grid0.N, k0_off2 (grid0.coords t) = ![1024 * (t.val % 4), 0])

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
/-- Where k ≠ 3 nothing is stored into the result window and its block is not written back. -/
theorem idleAt5 : ∀ t : Fin cfg0.N, ¬cond4 (grid0.coords t) → cfg0.idle 5 (grid0.coords t) = true := by decide +kernel
theorem noFlush5 : ∀ t : Fin cfg0.N, ¬cond4 (grid0.coords t) → (cfg0.win 5).flush t = false := by decide +kernel
theorem liveAt5 : ∀ t : Fin cfg0.N, cond4 (grid0.coords t) → cfg0.idle 5 (grid0.coords t) = false := by decide +kernel

/-! ## The memrefs the body is called with -/

abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x128 .f32 := win0_5.stage (cfg0.slots t 5)
abbrev hs5 (t : Fin cfg0.N) : (ms5 t).IsWhole := hstage0_5 ((cfg0.slots t 5).cast nbuf0_5)
/-- The accumulator and the two projections: whole scratch buffers. -/
abbrev scA : Memref sig .tc .vmem S1024x128 .f32 := Memref.whole cc0_scratch0
abbrev scI : Memref sig .tc .vmem S4096x128 .f32 := Memref.whole cc0_scratch1
abbrev scS : Memref sig .tc .vmem S4096x128 .f32 := Memref.whole cc0_scratch2

/-- The class invariant with the three scratch buffers as memrefs owned at some contents. -/
theorem PhiA0_eq (c : Dev nD) :
    (Pipeline.ΦA spec0 c : sProp 𝕄)
      = iprop(iprop((∃ d, owns (c : Thread nD τ) scA fullShare d) ∗ (∃ d, owns (c : Thread nD τ) scI fullShare d) ∗ (∃ d, owns (c : Thread nD τ) scS fullShare d)) ∗ (∃ r, prngReg c r)) := by
  unfold Pipeline.ΦA; rw [scopedRest0_eq]; simp only [scA, scI, scS, owns_whole]; try rfl

end Cert.Kernel.Hand

end
-- ==== Proof.RunProjFirstW.lean ====
/-
  The body at a point of block row 0 (the projections' rows of the chunk are computed and stored), first chunk (the accumulator is zeroed, then holds the chunk's partial product):
  run on whole memrefs at named contents, it ends holding every buffer it only reads as it was and every buffer it
  stores into with the stores listed — the lists are what the run finds.
-/
import proofs.«105109_g26044681683717_cont_sun_m_400_16_alg».proof.Proof.CasesW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runProjFirst (c : Dev nD) (i : grid0.Coords)
    (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : cond1 i) (hc2 : cond2 i) (hc3 : cond3 i) (hc4 : ¬cond4 i)
    (x : Vec F S4096x128 .f32) (wi ws : Vec F S128x128 .f32) (lb ub : Vec F S1024x1024 .f32) (a : Vec F S1024x128 .f32) (hi hs : Vec F S4096x128 .f32) :
    Σ' (LA : List (View.Piece (Elt F) S1024x128 .f32)) (LI : List (View.Piece (Elt F) S4096x128 .f32)), { LS : List (View.Piece (Elt F) S4096x128 .f32) //
      ∀ (xo : Vec F S1024x128 .f32) (E : Set ℕ) (K : PUnit → sProp 𝕄),
        iprop(owns (c : Thread nD τ) arg2 fullShare x
            ∗ owns (c : Thread nD τ) arg3 fullShare wi
            ∗ owns (c : Thread nD τ) arg4 fullShare ws
            ∗ owns (c : Thread nD τ) arg5 fullShare lb
            ∗ owns (c : Thread nD τ) arg6 fullShare ub
            ∗ owns (c : Thread nD τ) arg7 fullShare xo
            ∗ owns (c : Thread nD τ) arg8 fullShare a
            ∗ owns (c : Thread nD τ) arg9 fullShare hi
            ∗ owns (c : Thread nD τ) arg10 fullShare hs
            ∗ (iprop(owns (c : Thread nD τ) arg2 fullShare x
                ∗ owns (c : Thread nD τ) arg3 fullShare wi
                ∗ owns (c : Thread nD τ) arg4 fullShare ws
                ∗ owns (c : Thread nD τ) arg5 fullShare lb
                ∗ owns (c : Thread nD τ) arg6 fullShare ub
                ∗ owns (c : Thread nD τ) arg7 fullShare xo
                ∗ (arg8.view.loc (c : Thread nD τ) ↦[arg8.view.set]{fullShare} arg8.view.writes (Elt F) (harg8.unread a) LA)
                ∗ (arg9.view.loc (c : Thread nD τ) ↦[arg9.view.set]{fullShare} arg9.view.writes (Elt F) (harg9.unread hi) LI)
                ∗ (arg10.view.loc (c : Thread nD τ) ↦[arg10.view.set]{fullShare} arg10.view.writes (Elt F) (harg10.unread hs) LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, ?_, ?_, fun xo E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]; · iexact H9
    iexact H10

end Cert.Kernel.Hand

end
-- ==== Proof.RunProjMidW.lean ====
/-
  The body at a point of block row 0 (the projections' rows of the chunk are computed and stored), a middle chunk (the chunk's partial product is added into the accumulator):
  run on whole memrefs at named contents, it ends holding every buffer it only reads as it was and every buffer it
  stores into with the stores listed — the lists are what the run finds.
-/
import proofs.«105109_g26044681683717_cont_sun_m_400_16_alg».proof.Proof.CasesW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runProjMid (c : Dev nD) (i : grid0.Coords)
    (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : cond1 i) (hc2 : ¬cond2 i) (hc3 : cond3 i) (hc4 : ¬cond4 i)
    (x : Vec F S4096x128 .f32) (wi ws : Vec F S128x128 .f32) (lb ub : Vec F S1024x1024 .f32) (a : Vec F S1024x128 .f32) (hi hs : Vec F S4096x128 .f32) :
    Σ' (LA : List (View.Piece (Elt F) S1024x128 .f32)) (LI : List (View.Piece (Elt F) S4096x128 .f32)), { LS : List (View.Piece (Elt F) S4096x128 .f32) //
      ∀ (xo : Vec F S1024x128 .f32) (E : Set ℕ) (K : PUnit → sProp 𝕄),
        iprop(owns (c : Thread nD τ) arg2 fullShare x
            ∗ owns (c : Thread nD τ) arg3 fullShare wi
            ∗ owns (c : Thread nD τ) arg4 fullShare ws
            ∗ owns (c : Thread nD τ) arg5 fullShare lb
            ∗ owns (c : Thread nD τ) arg6 fullShare ub
            ∗ owns (c : Thread nD τ) arg7 fullShare xo
            ∗ owns (c : Thread nD τ) arg8 fullShare a
            ∗ owns (c : Thread nD τ) arg9 fullShare hi
            ∗ owns (c : Thread nD τ) arg10 fullShare hs
            ∗ (iprop(owns (c : Thread nD τ) arg2 fullShare x
                ∗ owns (c : Thread nD τ) arg3 fullShare wi
                ∗ owns (c : Thread nD τ) arg4 fullShare ws
                ∗ owns (c : Thread nD τ) arg5 fullShare lb
                ∗ owns (c : Thread nD τ) arg6 fullShare ub
                ∗ owns (c : Thread nD τ) arg7 fullShare xo
                ∗ (arg8.view.loc (c : Thread nD τ) ↦[arg8.view.set]{fullShare} arg8.view.writes (Elt F) (harg8.unread a) LA)
                ∗ (arg9.view.loc (c : Thread nD τ) ↦[arg9.view.set]{fullShare} arg9.view.writes (Elt F) (harg9.unread hi) LI)
                ∗ (arg10.view.loc (c : Thread nD τ) ↦[arg10.view.set]{fullShare} arg10.view.writes (Elt F) (harg10.unread hs) LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, ?_, ?_, fun xo E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]; · iexact H9
    iexact H10

end Cert.Kernel.Hand

end
-- ==== Proof.RunProjLastW.lean ====
/-
  The body at a point of block row 0 (the projections' rows of the chunk are computed and stored), last chunk (the result block is the accumulator plus the chunk's partial product, clamped below at zero):
  run on whole memrefs at named contents, it ends holding every buffer it only reads as it was and every buffer it
  stores into with the stores listed — the lists are what the run finds.
-/
import proofs.«105109_g26044681683717_cont_sun_m_400_16_alg».proof.Proof.CasesW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runProjLast (c : Dev nD) (i : grid0.Coords)
    (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : cond1 i) (hc2 : ¬cond2 i) (hc3 : ¬cond3 i) (hc4 : cond4 i)
    (x : Vec F S4096x128 .f32) (wi ws : Vec F S128x128 .f32) (lb ub : Vec F S1024x1024 .f32) (a : Vec F S1024x128 .f32) (hi hs : Vec F S4096x128 .f32) :
    Σ' (LO : List (View.Piece (Elt F) S1024x128 .f32)) (LI : List (View.Piece (Elt F) S4096x128 .f32)), { LS : List (View.Piece (Elt F) S4096x128 .f32) //
      ∀ (E : Set ℕ) (K : PUnit → sProp 𝕄),
        iprop(owns (c : Thread nD τ) arg2 fullShare x
            ∗ owns (c : Thread nD τ) arg3 fullShare wi
            ∗ owns (c : Thread nD τ) arg4 fullShare ws
            ∗ owns (c : Thread nD τ) arg5 fullShare lb
            ∗ owns (c : Thread nD τ) arg6 fullShare ub
            ∗ (∃ d, owns (c : Thread nD τ) arg7 fullShare d)
            ∗ owns (c : Thread nD τ) arg8 fullShare a
            ∗ owns (c : Thread nD τ) arg9 fullShare hi
            ∗ owns (c : Thread nD τ) arg10 fullShare hs
            ∗ (iprop(owns (c : Thread nD τ) arg2 fullShare x
                ∗ owns (c : Thread nD τ) arg3 fullShare wi
                ∗ owns (c : Thread nD τ) arg4 fullShare ws
                ∗ owns (c : Thread nD τ) arg5 fullShare lb
                ∗ owns (c : Thread nD τ) arg6 fullShare ub
                ∗ (∃ f, arg7.view.loc (c : Thread nD τ) ↦[arg7.view.set]{fullShare} arg7.view.writes (Elt F) f LO)
                ∗ owns (c : Thread nD τ) arg8 fullShare a
                ∗ (arg9.view.loc (c : Thread nD τ) ↦[arg9.view.set]{fullShare} arg9.view.writes (Elt F) (harg9.unread hi) LI)
                ∗ (arg10.view.loc (c : Thread nD τ) ↦[arg10.view.set]{fullShare} arg10.view.writes (Elt F) (harg10.unread hs) LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, ?_, ?_, fun E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6
    obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]; · iexact H9
    iexact H10

end Cert.Kernel.Hand

end
-- ==== Proof.RunReuseFirstW.lean ====
/-
  The body at a point of a later block row (the projections are read back from scratch), first chunk (the accumulator is zeroed, then holds the chunk's partial product):
  run on whole memrefs at named contents, it ends holding every buffer it only reads as it was and every buffer it
  stores into with the stores listed — the lists are what the run finds.
-/
import proofs.«105109_g26044681683717_cont_sun_m_400_16_alg».proof.Proof.CasesW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runReuseFirst (c : Dev nD) (i : grid0.Coords)
    (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : ¬cond1 i) (hc2 : cond2 i) (hc3 : cond3 i) (hc4 : ¬cond4 i)
    (x : Vec F S4096x128 .f32) (wi ws : Vec F S128x128 .f32) (lb ub : Vec F S1024x1024 .f32) (a : Vec F S1024x128 .f32) (hi hs : Vec F S4096x128 .f32) :
    { LA : List (View.Piece (Elt F) S1024x128 .f32) //
      ∀ (xo : Vec F S1024x128 .f32) (E : Set ℕ) (K : PUnit → sProp 𝕄),
        iprop(owns (c : Thread nD τ) arg2 fullShare x
            ∗ owns (c : Thread nD τ) arg3 fullShare wi
            ∗ owns (c : Thread nD τ) arg4 fullShare ws
            ∗ owns (c : Thread nD τ) arg5 fullShare lb
            ∗ owns (c : Thread nD τ) arg6 fullShare ub
            ∗ owns (c : Thread nD τ) arg7 fullShare xo
            ∗ owns (c : Thread nD τ) arg8 fullShare a
            ∗ owns (c : Thread nD τ) arg9 fullShare hi
            ∗ owns (c : Thread nD τ) arg10 fullShare hs
            ∗ (iprop(owns (c : Thread nD τ) arg2 fullShare x
                ∗ owns (c : Thread nD τ) arg3 fullShare wi
                ∗ owns (c : Thread nD τ) arg4 fullShare ws
                ∗ owns (c : Thread nD τ) arg5 fullShare lb
                ∗ owns (c : Thread nD τ) arg6 fullShare ub
                ∗ owns (c : Thread nD τ) arg7 fullShare xo
                ∗ (arg8.view.loc (c : Thread nD τ) ↦[arg8.view.set]{fullShare} arg8.view.writes (Elt F) (harg8.unread a) LA)
                ∗ owns (c : Thread nD τ) arg9 fullShare hi
                ∗ owns (c : Thread nD τ) arg10 fullShare hs) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, fun xo E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]
    · iexists _; isplitr; · ipureintro; exact harg9.read_unread _
      iexact H9
    iexists _; isplitr; · ipureintro; exact harg10.read_unread _
    iexact H10

end Cert.Kernel.Hand

end
-- ==== Proof.RunReuseMidW.lean ====
/-
  The body at a point of a later block row (the projections are read back from scratch), a middle chunk (the chunk's partial product is added into the accumulator):
  run on whole memrefs at named contents, it ends holding every buffer it only reads as it was and every buffer it
  stores into with the stores listed — the lists are what the run finds.
-/
import proofs.«105109_g26044681683717_cont_sun_m_400_16_alg».proof.Proof.CasesW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runReuseMid (c : Dev nD) (i : grid0.Coords)
    (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : ¬cond1 i) (hc2 : ¬cond2 i) (hc3 : cond3 i) (hc4 : ¬cond4 i)
    (x : Vec F S4096x128 .f32) (wi ws : Vec F S128x128 .f32) (lb ub : Vec F S1024x1024 .f32) (a : Vec F S1024x128 .f32) (hi hs : Vec F S4096x128 .f32) :
    { LA : List (View.Piece (Elt F) S1024x128 .f32) //
      ∀ (xo : Vec F S1024x128 .f32) (E : Set ℕ) (K : PUnit → sProp 𝕄),
        iprop(owns (c : Thread nD τ) arg2 fullShare x
            ∗ owns (c : Thread nD τ) arg3 fullShare wi
            ∗ owns (c : Thread nD τ) arg4 fullShare ws
            ∗ owns (c : Thread nD τ) arg5 fullShare lb
            ∗ owns (c : Thread nD τ) arg6 fullShare ub
            ∗ owns (c : Thread nD τ) arg7 fullShare xo
            ∗ owns (c : Thread nD τ) arg8 fullShare a
            ∗ owns (c : Thread nD τ) arg9 fullShare hi
            ∗ owns (c : Thread nD τ) arg10 fullShare hs
            ∗ (iprop(owns (c : Thread nD τ) arg2 fullShare x
                ∗ owns (c : Thread nD τ) arg3 fullShare wi
                ∗ owns (c : Thread nD τ) arg4 fullShare ws
                ∗ owns (c : Thread nD τ) arg5 fullShare lb
                ∗ owns (c : Thread nD τ) arg6 fullShare ub
                ∗ owns (c : Thread nD τ) arg7 fullShare xo
                ∗ (arg8.view.loc (c : Thread nD τ) ↦[arg8.view.set]{fullShare} arg8.view.writes (Elt F) (harg8.unread a) LA)
                ∗ owns (c : Thread nD τ) arg9 fullShare hi
                ∗ owns (c : Thread nD τ) arg10 fullShare hs) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, fun xo E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]
    · iexists _; isplitr; · ipureintro; exact harg9.read_unread _
      iexact H9
    iexists _; isplitr; · ipureintro; exact harg10.read_unread _
    iexact H10

end Cert.Kernel.Hand

end
-- ==== Proof.RunReuseLastW.lean ====
/-
  The body at a point of a later block row (the projections are read back from scratch), last chunk (the result block is the accumulator plus the chunk's partial product, clamped below at zero):
  run on whole memrefs at named contents, it ends holding every buffer it only reads as it was and every buffer it
  stores into with the stores listed — the lists are what the run finds.
-/
import proofs.«105109_g26044681683717_cont_sun_m_400_16_alg».proof.Proof.CasesW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runReuseLast (c : Dev nD) (i : grid0.Coords)
    (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : ¬cond1 i) (hc2 : ¬cond2 i) (hc3 : ¬cond3 i) (hc4 : cond4 i)
    (x : Vec F S4096x128 .f32) (wi ws : Vec F S128x128 .f32) (lb ub : Vec F S1024x1024 .f32) (a : Vec F S1024x128 .f32) (hi hs : Vec F S4096x128 .f32) :
    { LO : List (View.Piece (Elt F) S1024x128 .f32) //
      ∀ (E : Set ℕ) (K : PUnit → sProp 𝕄),
        iprop(owns (c : Thread nD τ) arg2 fullShare x
            ∗ owns (c : Thread nD τ) arg3 fullShare wi
            ∗ owns (c : Thread nD τ) arg4 fullShare ws
            ∗ owns (c : Thread nD τ) arg5 fullShare lb
            ∗ owns (c : Thread nD τ) arg6 fullShare ub
            ∗ (∃ d, owns (c : Thread nD τ) arg7 fullShare d)
            ∗ owns (c : Thread nD τ) arg8 fullShare a
            ∗ owns (c : Thread nD τ) arg9 fullShare hi
            ∗ owns (c : Thread nD τ) arg10 fullShare hs
            ∗ (iprop(owns (c : Thread nD τ) arg2 fullShare x
                ∗ owns (c : Thread nD τ) arg3 fullShare wi
                ∗ owns (c : Thread nD τ) arg4 fullShare ws
                ∗ owns (c : Thread nD τ) arg5 fullShare lb
                ∗ owns (c : Thread nD τ) arg6 fullShare ub
                ∗ (∃ f, arg7.view.loc (c : Thread nD τ) ↦[arg7.view.set]{fullShare} arg7.view.writes (Elt F) f LO)
                ∗ owns (c : Thread nD τ) arg8 fullShare a
                ∗ owns (c : Thread nD τ) arg9 fullShare hi
                ∗ owns (c : Thread nD τ) arg10 fullShare hs) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, fun E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6
    obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]
    · iexists _; isplitr; · ipureintro; exact harg9.read_unread _
      iexact H9
    iexists _; isplitr; · ipureintro; exact harg10.read_unread _
    iexact H10

end Cert.Kernel.Hand

end
-- ==== Proof.ContentsW.lean ====
/-
  What the scratch buffers and the result window hold after each point, in closed form over the argument arrays'
  blocks, at any float instance.
  Chunk k (k < 4) of a 4096-row array is its rows [1024·k, 1024·k + 1024). With x the input, W_irr, W_sol the weights
  and L_t, U_t the two neighbourhood blocks of point t = 4·i + k:
    projI k = chunk k of x times W_irr,   projS k = chunk k of x times W_sol     (rows of the two projections),
    accAt t = L_t·projI k + U_t·projS k  added to zero (k = 0) or to accAt (t − 1) (k = 1, 2),
    outAt t = max(accAt (t − 1) + L_t·projI 3 + U_t·projS 3, 0)                    (k = 3).
  The invariant before point n: the projections' chunks below n are in place in the two projection scratches, and,
  unless the previous point closed a block row, the accumulator scratch holds accAt (n − 1).
  Also: how a value loaded from a whole memref held at named contents reads as a function of those contents.
-/
import proofs.«105109_g26044681683717_cont_sun_m_400_16_alg».proof.Proof.CasesW
import Idealize.ShloMosaic.Lib.Pipeline.Value
import Idealize.ShloMosaic.Lib.WholeRead
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl

theorem rows_inb (k : ℕ) (hk : k < 4) : ∀ a, (![1024 * k, 0] : Fin 2 → ℕ) a + S1024x128.size a ≤ S4096x128.size a :=
  Fin.forall_fin_two.mpr ⟨by show 1024 * k + 1024 ≤ 4096; omega, by show 0 + 128 ≤ 128; omega⟩

/-- Rows [1024·k, 1024·k + 1024) of a 4096 × 128 array, all columns. -/
abbrev rowsRect (k : ℕ) (hk : k < 4) : Rect S4096x128 := Rect.unit ![1024 * k, 0] S1024x128.size (rows_inb k hk)

/-- Chunk k of a 4096-row array. -/
def chunk (k : ℕ) (hk : k < 4) (h : Vec F S4096x128 .f32) : Vec F S1024x128 .f32 := View.ld (Val := Elt F) h (rowsRect k hk)

/-- A chunk read through any spelling of its offsets. -/
theorem ld_rows_eq {off : Fin 2 → ℕ} (k : ℕ) (hk : k < 4) (ho : off = ![1024 * k, 0]) (inb : ∀ a, off a + S1024x128.size a ≤ S4096x128.size a)
    (h : Vec F S4096x128 .f32) : View.ld (Val := Elt F) h (Rect.unit (s := S4096x128) off S1024x128.size inb) = chunk k hk h := by
  subst ho; rfl

/-- A load through a unit-stride rectangle of a whole memref held at the contents that read `X` reads `X` there. -/
theorem readAt_unread_eq_ld {κ : Kind} {sp : Space} {s : Shape} {m : Memref sig κ sp s .f32} (h : m.IsWhole) (X : s.Idx → Elt F .f32)
    (r : Rect s) : View.readAt (Elt F) m.view r.toLoadRect (h.unread X) = View.ld (Val := Elt F) X r := by
  show View.ld (Val := Elt F) (m.view.read (Elt F) (h.unread X)) r = _
  rw [h.read_unread]

/-- A store through the whole of a rank-2 buffer, last, leaves its payload, whatever came before. -/
theorem read_writes_cons_whole {κ : Kind} {sp : Space} {d : Fin 2 → ℕ} (v : View sig κ sp (⟨2, d⟩ : Shape) .f32) (f : v.ty.Contents (Elt F))
    (inb : ∀ a : Fin 2, (![0, 0] : Fin 2 → ℕ) a + d a ≤ d a) (w : (Rect.unit (s := ⟨2, d⟩) ![0, 0] d inb).shape.Idx → Elt F .f32)
    (L : List (View.Piece (Elt F) (⟨2, d⟩ : Shape) .f32)) :
    v.read (Elt F) (v.writes (Elt F) f (⟨Rect.unit (s := ⟨2, d⟩) ![0, 0] d inb, w⟩ :: L)) = w :=
  funext fun y => View.read_writes_cons_unit_of_mem v f inb w L y y rfl
    (Fin.forall_fin_two.mpr ⟨(Nat.zero_add _).symm, (Nat.zero_add _).symm⟩)

/-- A load of the whole of a rank-2 array reads the array. -/
theorem ld_whole {d : Fin 2 → ℕ} (inb : ∀ a : Fin 2, (![0, 0] : Fin 2 → ℕ) a + d a ≤ d a) (X : (⟨2, d⟩ : Shape).Idx → Elt F .f32) :
    View.ld (Val := Elt F) X (Rect.unit (s := ⟨2, d⟩) ![0, 0] d inb) = X := View.ld_unit_zero hz2 inb X

/-- After rows of chunk j are overwritten by `w`, chunk j reads `w`; -/
theorem chunk_store_same {κ : Kind} {sp : Space} (v : View sig κ sp S4096x128 .f32) (f : v.ty.Contents (Elt F)) {off : Fin 2 → ℕ}
    (j : ℕ) (hj : j < 4) (ho : off = ![1024 * j, 0]) (inb : ∀ a, off a + S1024x128.size a ≤ S4096x128.size a)
    (w : (Rect.unit (s := S4096x128) off S1024x128.size inb).shape.Idx → Elt F .f32) (L : List (View.Piece (Elt F) S4096x128 .f32)) :
    chunk j hj (v.read (Elt F) (v.writes (Elt F) f (⟨Rect.unit (s := S4096x128) off S1024x128.size inb, w⟩ :: L))) = w :=
  funext fun y => View.read_writes_cons_unit_of_mem v f inb w L _ y ho fun a => by
    show (![1024 * j, 0] : Fin 2 → ℕ) a + 1 * (y a).val = _
    rw [Nat.one_mul]

/-- and every other chunk reads what it read before. -/
theorem chunk_store_other {κ : Kind} {sp : Space} (v : View sig κ sp S4096x128 .f32) (f : v.ty.Contents (Elt F)) {off : Fin 2 → ℕ}
    (j : ℕ) (hj : j < 4) (ho : off = ![1024 * j, 0]) (inb : ∀ a, off a + S1024x128.size a ≤ S4096x128.size a)
    (w : (Rect.unit (s := S4096x128) off S1024x128.size inb).shape.Idx → Elt F .f32) (L : List (View.Piece (Elt F) S4096x128 .f32))
    (k : ℕ) (hk : k < 4) (hne : k ≠ j) :
    chunk k hk (v.read (Elt F) (v.writes (Elt F) f (⟨Rect.unit (s := S4096x128) off S1024x128.size inb, w⟩ :: L)))
      = chunk k hk (v.read (Elt F) (v.writes (Elt F) f L)) :=
  funext fun y => View.read_writes_cons_rows_of_not_mem (d := ![4096, 128]) v f inb w L _ ho (W := 1024) rfl (by
    have hy : (y 0).val < 1024 := (y 0).isLt
    show (1024 * k + 1 * (y 0).val) < 1024 * j ∨ 1024 * j + 1024 ≤ (1024 * k + 1 * (y 0).val)
    omega)

/-- A load through the last store's rectangle, its offsets spelt another way, reads that store's payload. -/
theorem readCov_cons_unit_eq {κ : Kind} {sp : Space} {s : Shape} (v : View sig κ sp s .f32) {off off' : Fin s.rank → ℕ} (h : off' = off)
    (size : Fin s.rank → ℕ) (inb : ∀ a, off a + size a ≤ s.size a) (inb' : ∀ a, off' a + size a ≤ s.size a)
    (w : (Rect.unit off size inb).shape.Idx → Elt F .f32) (L : List (View.Piece (Elt F) s .f32)) :
    v.readCov (⟨Rect.unit off size inb, w⟩ :: L) (Rect.unit off' size inb').toLoadRect = w := by
  subst h; exact View.readCov_cons_toLoadRect v _ w L

/-- The two spellings of a chunk's row offset in the body are one function of the point. -/
theorem off2_eq_off1 (i : grid0.Coords) : k0_off2 i = k0_off1 i := rfl

section Closed

variable (xs : Vec F S4096x128 .f32) (wi ws : Vec F S128x128 .f32) (lbs ubs : Fin cfg0.N → Vec F S1024x1024 .f32)

/-- Chunk k of the first projection: chunk k of x times W_irr. -/
def projI (k : ℕ) (hk : k < 4) : Vec F S1024x128 .f32 := k0_pay1 (chunk k hk xs) wi
/-- Chunk k of the second projection: chunk k of x times W_sol. -/
def projS (k : ℕ) (hk : k < 4) : Vec F S1024x128 .f32 := k0_pay2 (chunk k hk xs) ws

theorem mod4 (n : ℕ) : n % 4 < 4 := Nat.mod_lt _ (by decide)

/-- The accumulator after point n, where the point adds into it (k < 3). -/
def accAt : (n : ℕ) → n < cfg0.N → Vec F S1024x128 .f32
  | 0, h => k0_pay5 (projI xs wi (0 % 4) (mod4 0)) (projS xs ws (0 % 4) (mod4 0)) (lbs ⟨0, h⟩) (ubs ⟨0, h⟩) k0_pay3
  | n + 1, h => k0_pay5 (projI xs wi ((n + 1) % 4) (mod4 _)) (projS xs ws ((n + 1) % 4) (mod4 _)) (lbs ⟨n + 1, h⟩) (ubs ⟨n + 1, h⟩)
      (if (n + 1) % 4 = 0 then k0_pay3 else accAt n (Nat.lt_of_succ_lt h))

theorem accAt_first (n : ℕ) (h : n < cfg0.N) (hz : n % 4 = 0) :
    accAt xs wi ws lbs ubs n h = k0_pay5 (projI xs wi (n % 4) (mod4 n)) (projS xs ws (n % 4) (mod4 n)) (lbs ⟨n, h⟩) (ubs ⟨n, h⟩) k0_pay3 := by
  cases n with
  | zero => rfl
  | succ n => show k0_pay5 _ _ _ _ (if (n + 1) % 4 = 0 then _ else _) = _; rw [if_pos hz]

theorem accAt_next (n : ℕ) (h : n < cfg0.N) (hz : n % 4 ≠ 0) :
    accAt xs wi ws lbs ubs n h = k0_pay5 (projI xs wi (n % 4) (mod4 n)) (projS xs ws (n % 4) (mod4 n)) (lbs ⟨n, h⟩) (ubs ⟨n, h⟩)
      (accAt xs wi ws lbs ubs (n - 1) (Nat.lt_of_le_of_lt (Nat.sub_le _ _) h)) := by
  cases n with
  | zero => exact absurd rfl hz
  | succ n => show k0_pay5 _ _ _ _ (if (n + 1) % 4 = 0 then _ else _) = _; rw [if_neg hz]; rfl

/-- The result block written at point n (k = 3). -/
def outAt (n : ℕ) (h : n < cfg0.N) : Vec F S1024x128 .f32 :=
  k0_pay6 (projI xs wi (n % 4) (mod4 n)) (projS xs ws (n % 4) (mod4 n)) (lbs ⟨n, h⟩) (ubs ⟨n, h⟩)
    (accAt xs wi ws lbs ubs (n - 1) (Nat.lt_of_le_of_lt (Nat.sub_le _ _) h))

/-- Before point n: the projections' chunks below n are stored, and the accumulator holds the running sum unless the
    point before closed its block row. -/
def Inv (n : ℕ) (a : Vec F S1024x128 .f32) (hi hs : Vec F S4096x128 .f32) : Prop :=
  (∀ k (hk : k < 4), k < n → chunk k hk hi = projI xs wi k hk ∧ chunk k hk hs = projS xs ws k hk)
  ∧ (∀ h : n - 1 < cfg0.N, n ≠ 0 → (n - 1) % 4 ≠ 3 → a = accAt xs wi ws lbs ubs (n - 1) h)

theorem Inv_zero (a : Vec F S1024x128 .f32) (hi hs : Vec F S4096x128 .f32) : Inv xs wi ws lbs ubs 0 a hi hs :=
  ⟨fun k _ h => absurd h (Nat.not_lt_zero _), fun _ h _ => absurd rfl h⟩

/-- Storing chunk n of the two projections over buffers holding the chunks below n leaves the chunks below n + 1. -/
theorem chunks_step {κ : Kind} {sp : Space} (vI vS : View sig κ sp S4096x128 .f32) (fI : vI.ty.Contents (Elt F)) (fS : vS.ty.Contents (Elt F))
    (n : ℕ) (hn : n < 4) {off : Fin 2 → ℕ} (ho : off = ![1024 * n, 0]) (inbI inbS : ∀ a, off a + S1024x128.size a ≤ S4096x128.size a)
    (hi hs : Vec F S4096x128 .f32) (hfI : vI.read (Elt F) fI = hi) (hfS : vS.read (Elt F) fS = hs)
    (hP : ∀ k (hk : k < 4), k < n → chunk k hk hi = projI xs wi k hk ∧ chunk k hk hs = projS xs ws k hk) :
    ∀ k (hk : k < 4), k < n + 1 →
      chunk k hk (vI.read (Elt F) (vI.writes (Elt F) fI [⟨Rect.unit (s := S4096x128) off S1024x128.size inbI, projI xs wi n hn⟩])) = projI xs wi k hk
      ∧ chunk k hk (vS.read (Elt F) (vS.writes (Elt F) fS [⟨Rect.unit (s := S4096x128) off S1024x128.size inbS, projS xs ws n hn⟩])) = projS xs ws k hk := by
  intro k hk hkn
  by_cases hkt : k = n
  · subst hkt
    exact ⟨chunk_store_same vI fI k hk ho inbI _ [], chunk_store_same vS fS k hk ho inbS _ []⟩
  · rw [chunk_store_other vI fI n hn ho inbI _ [] k hk hkt, chunk_store_other vS fS n hn ho inbS _ [] k hk hkt,
      View.writes_nil, View.writes_nil, hfI, hfS]
    exact hP k hk (by omega)

end Closed

end Cert.Kernel.Hand

end
-- ==== Proof.StepsW.lean ====
/-
  One step of the invariant per case of the body: the contents the run's stores leave in the scratch buffers satisfy the
  invariant before the next point, and at a last chunk the result window's buffer holds the closed-form block.
  In each case the values the body loaded are read back as functions of the buffers' contents (a load after a store
  through the same rows is the stored value; a load of rows stored at an earlier point is the chunk the invariant
  names), after which the stored payloads are the closed forms by unfolding.
-/
import proofs.«105109_g26044681683717_cont_sun_m_400_16_alg».proof.Proof.RunProjFirstW
import proofs.«105109_g26044681683717_cont_sun_m_400_16_alg».proof.Proof.RunProjMidW
import proofs.«105109_g26044681683717_cont_sun_m_400_16_alg».proof.Proof.RunProjLastW
import proofs.«105109_g26044681683717_cont_sun_m_400_16_alg».proof.Proof.RunReuseFirstW
import proofs.«105109_g26044681683717_cont_sun_m_400_16_alg».proof.Proof.RunReuseMidW
import proofs.«105109_g26044681683717_cont_sun_m_400_16_alg».proof.Proof.RunReuseLastW
import proofs.«105109_g26044681683717_cont_sun_m_400_16_alg».proof.Proof.ContentsW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (xs : Vec F S4096x128 .f32) (wi ws : Vec F S128x128 .f32) (lbs ubs : Fin cfg0.N → Vec F S1024x1024 .f32)

/-! ## Block row 0: the projections' chunk is stored at this point -/

theorem step_projFirst (c : Dev nD) (t : Fin cfg0.N) (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : cond1 (grid0.coords t)) (hc2 : cond2 (grid0.coords t)) (hc3 : cond3 (grid0.coords t)) (hc4 : ¬cond4 (grid0.coords t))
    (a : Vec F S1024x128 .f32) (hi hs : Vec F S4096x128 .f32) (hInv : Inv xs wi ws lbs ubs t.val a hi hs) :
    Inv xs wi ws lbs ubs (t.val + 1)
      (arg8.view.read (Elt F) (arg8.view.writes (Elt F) (harg8.unread a) (runProjFirst c (grid0.coords t) arg2 harg2 arg3 harg3 arg4 harg4 arg5 harg5 arg6 harg6 arg7 harg7 arg8 harg8 arg9 harg9 arg10 harg10 hc1 hc2 hc3 hc4 xs wi ws (lbs t) (ubs t) a hi hs).1))
      (arg9.view.read (Elt F) (arg9.view.writes (Elt F) (harg9.unread hi) (runProjFirst c (grid0.coords t) arg2 harg2 arg3 harg3 arg4 harg4 arg5 harg5 arg6 harg6 arg7 harg7 arg8 harg8 arg9 harg9 arg10 harg10 hc1 hc2 hc3 hc4 xs wi ws (lbs t) (ubs t) a hi hs).2.1))
      (arg10.view.read (Elt F) (arg10.view.writes (Elt F) (harg10.unread hs) (runProjFirst c (grid0.coords t) arg2 harg2 arg3 harg3 arg4 harg4 arg5 harg5 arg6 harg6 arg7 harg7 arg8 harg8 arg9 harg9 arg10 harg10 hc1 hc2 hc3 hc4 xs wi ws (lbs t) (ubs t) a hi hs).2.2.1)) := by
  have h1 := (hcond1 t).mp hc1
  have h2 := (hcond2 t).mp hc2
  obtain ⟨hP, hA⟩ := hInv
  unfold runProjFirst; dsimp only; sl_unfold_run_names
  simp only [readAt_unread_eq_ld, ld_whole]
  rw [readCov_cons_unit_eq _ (off2_eq_off1 _), readCov_cons_unit_eq _ (off2_eq_off1 _), readCov_cons_unit_eq _ rfl, read_writes_cons_whole]
  rw [ld_rows_eq (t.val % 4) (mod4 _) (hoff1 t)]
  refine ⟨?_, fun h _ hne => ?_⟩
  · intro k hk hkn
    exact chunks_step xs wi ws arg9.view arg10.view (harg9.unread hi) (harg10.unread hs) (t.val % 4) (mod4 _) (hoff1 t) _ _ hi hs
      (harg9.read_unread hi) (harg10.read_unread hs) (fun k hk hkn => hP k hk (by omega)) k hk (by omega)
  · exact (accAt_first xs wi ws lbs ubs t.val t.isLt h2).symm

theorem step_projMid (c : Dev nD) (t : Fin cfg0.N) (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : cond1 (grid0.coords t)) (hc2 : ¬cond2 (grid0.coords t)) (hc3 : cond3 (grid0.coords t)) (hc4 : ¬cond4 (grid0.coords t))
    (a : Vec F S1024x128 .f32) (hi hs : Vec F S4096x128 .f32) (hInv : Inv xs wi ws lbs ubs t.val a hi hs) :
    Inv xs wi ws lbs ubs (t.val + 1)
      (arg8.view.read (Elt F) (arg8.view.writes (Elt F) (harg8.unread a) (runProjMid c (grid0.coords t) arg2 harg2 arg3 harg3 arg4 harg4 arg5 harg5 arg6 harg6 arg7 harg7 arg8 harg8 arg9 harg9 arg10 harg10 hc1 hc2 hc3 hc4 xs wi ws (lbs t) (ubs t) a hi hs).1))
      (arg9.view.read (Elt F) (arg9.view.writes (Elt F) (harg9.unread hi) (runProjMid c (grid0.coords t) arg2 harg2 arg3 harg3 arg4 harg4 arg5 harg5 arg6 harg6 arg7 harg7 arg8 harg8 arg9 harg9 arg10 harg10 hc1 hc2 hc3 hc4 xs wi ws (lbs t) (ubs t) a hi hs).2.1))
      (arg10.view.read (Elt F) (arg10.view.writes (Elt F) (harg10.unread hs) (runProjMid c (grid0.coords t) arg2 harg2 arg3 harg3 arg4 harg4 arg5 harg5 arg6 harg6 arg7 harg7 arg8 harg8 arg9 harg9 arg10 harg10 hc1 hc2 hc3 hc4 xs wi ws (lbs t) (ubs t) a hi hs).2.2.1)) := by
  have h1 := (hcond1 t).mp hc1
  have h2 := mt (hcond2 t).mpr hc2
  have h3 := (hcond3 t).mp hc3
  obtain ⟨hP, hA⟩ := hInv
  unfold runProjMid; dsimp only; sl_unfold_run_names
  simp only [readAt_unread_eq_ld, ld_whole]
  rw [readCov_cons_unit_eq _ (off2_eq_off1 _), readCov_cons_unit_eq _ (off2_eq_off1 _), read_writes_cons_whole]
  rw [ld_rows_eq (t.val % 4) (mod4 _) (hoff1 t)]
  refine ⟨?_, fun h _ hne => ?_⟩
  · intro k hk hkn
    exact chunks_step xs wi ws arg9.view arg10.view (harg9.unread hi) (harg10.unread hs) (t.val % 4) (mod4 _) (hoff1 t) _ _ hi hs
      (harg9.read_unread hi) (harg10.read_unread hs) (fun k hk hkn => hP k hk (by omega)) k hk (by omega)
  · rw [hA (Nat.lt_of_le_of_lt (Nat.sub_le _ _) t.isLt) (by omega) (by omega)]
    exact (accAt_next xs wi ws lbs ubs t.val t.isLt h2).symm

theorem step_projLast (c : Dev nD) (t : Fin cfg0.N) (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : cond1 (grid0.coords t)) (hc2 : ¬cond2 (grid0.coords t)) (hc3 : ¬cond3 (grid0.coords t)) (hc4 : cond4 (grid0.coords t))
    (a : Vec F S1024x128 .f32) (hi hs : Vec F S4096x128 .f32) (hInv : Inv xs wi ws lbs ubs t.val a hi hs) :
    Inv xs wi ws lbs ubs (t.val + 1) a
      (arg9.view.read (Elt F) (arg9.view.writes (Elt F) (harg9.unread hi) (runProjLast c (grid0.coords t) arg2 harg2 arg3 harg3 arg4 harg4 arg5 harg5 arg6 harg6 arg7 harg7 arg8 harg8 arg9 harg9 arg10 harg10 hc1 hc2 hc3 hc4 xs wi ws (lbs t) (ubs t) a hi hs).2.1))
      (arg10.view.read (Elt F) (arg10.view.writes (Elt F) (harg10.unread hs) (runProjLast c (grid0.coords t) arg2 harg2 arg3 harg3 arg4 harg4 arg5 harg5 arg6 harg6 arg7 harg7 arg8 harg8 arg9 harg9 arg10 harg10 hc1 hc2 hc3 hc4 xs wi ws (lbs t) (ubs t) a hi hs).2.2.1)) := by
  have h1 := (hcond1 t).mp hc1
  have h4 := (hcond4 t).mp hc4
  obtain ⟨hP, hA⟩ := hInv
  unfold runProjLast; dsimp only; sl_unfold_run_names
  simp only [readAt_unread_eq_ld, ld_whole]
  rw [ld_rows_eq (t.val % 4) (mod4 _) (hoff1 t)]
  refine ⟨?_, fun h _ hne => absurd h4 hne⟩
  · intro k hk hkn
    exact chunks_step xs wi ws arg9.view arg10.view (harg9.unread hi) (harg10.unread hs) (t.val % 4) (mod4 _) (hoff1 t) _ _ hi hs
      (harg9.read_unread hi) (harg10.read_unread hs) (fun k hk hkn => hP k hk (by omega)) k hk (by omega)

theorem out_projLast (c : Dev nD) (t : Fin cfg0.N) (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : cond1 (grid0.coords t)) (hc2 : ¬cond2 (grid0.coords t)) (hc3 : ¬cond3 (grid0.coords t)) (hc4 : cond4 (grid0.coords t))
    (a : Vec F S1024x128 .f32) (hi hs : Vec F S4096x128 .f32) (hInv : Inv xs wi ws lbs ubs t.val a hi hs)
    (f : arg7.view.ty.Contents (Elt F)) :
    arg7.view.read (Elt F) (arg7.view.writes (Elt F) f (runProjLast c (grid0.coords t) arg2 harg2 arg3 harg3 arg4 harg4 arg5 harg5 arg6 harg6 arg7 harg7 arg8 harg8 arg9 harg9 arg10 harg10 hc1 hc2 hc3 hc4 xs wi ws (lbs t) (ubs t) a hi hs).1) = outAt xs wi ws lbs ubs t.val t.isLt := by
  have h1 := (hcond1 t).mp hc1
  have h4 := (hcond4 t).mp hc4
  obtain ⟨hP, hA⟩ := hInv
  unfold runProjLast; dsimp only; sl_unfold_run_names
  simp only [readAt_unread_eq_ld, ld_whole]
  rw [readCov_cons_unit_eq _ (off2_eq_off1 _), readCov_cons_unit_eq _ (off2_eq_off1 _), read_writes_cons_whole]
  rw [ld_rows_eq (t.val % 4) (mod4 _) (hoff1 t)]
  rw [hA (Nat.lt_of_le_of_lt (Nat.sub_le _ _) t.isLt) (by omega) (by omega)]
  rfl

/-! ## Later block rows: the projections are read back -/

theorem step_reuseFirst (c : Dev nD) (t : Fin cfg0.N) (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : ¬cond1 (grid0.coords t)) (hc2 : cond2 (grid0.coords t)) (hc3 : cond3 (grid0.coords t)) (hc4 : ¬cond4 (grid0.coords t))
    (a : Vec F S1024x128 .f32) (hi hs : Vec F S4096x128 .f32) (hInv : Inv xs wi ws lbs ubs t.val a hi hs) :
    Inv xs wi ws lbs ubs (t.val + 1)
      (arg8.view.read (Elt F) (arg8.view.writes (Elt F) (harg8.unread a) (runReuseFirst c (grid0.coords t) arg2 harg2 arg3 harg3 arg4 harg4 arg5 harg5 arg6 harg6 arg7 harg7 arg8 harg8 arg9 harg9 arg10 harg10 hc1 hc2 hc3 hc4 xs wi ws (lbs t) (ubs t) a hi hs).1)) hi hs := by
  have h1 := mt (hcond1 t).mpr hc1
  have h2 := (hcond2 t).mp hc2
  obtain ⟨hP, hA⟩ := hInv
  unfold runReuseFirst; dsimp only; sl_unfold_run_names
  simp only [readAt_unread_eq_ld, ld_whole]
  rw [readCov_cons_unit_eq _ rfl, read_writes_cons_whole]
  rw [ld_rows_eq (t.val % 4) (mod4 _) (hoff2 t), ld_rows_eq (t.val % 4) (mod4 _) (hoff2 t),
    (hP (t.val % 4) (mod4 _) (by have := mod4 t.val; omega)).1, (hP (t.val % 4) (mod4 _) (by have := mod4 t.val; omega)).2]
  refine ⟨fun k hk hkn => hP k hk (by omega), fun h _ hne => ?_⟩
  exact (accAt_first xs wi ws lbs ubs t.val t.isLt h2).symm

theorem step_reuseMid (c : Dev nD) (t : Fin cfg0.N) (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : ¬cond1 (grid0.coords t)) (hc2 : ¬cond2 (grid0.coords t)) (hc3 : cond3 (grid0.coords t)) (hc4 : ¬cond4 (grid0.coords t))
    (a : Vec F S1024x128 .f32) (hi hs : Vec F S4096x128 .f32) (hInv : Inv xs wi ws lbs ubs t.val a hi hs) :
    Inv xs wi ws lbs ubs (t.val + 1)
      (arg8.view.read (Elt F) (arg8.view.writes (Elt F) (harg8.unread a) (runReuseMid c (grid0.coords t) arg2 harg2 arg3 harg3 arg4 harg4 arg5 harg5 arg6 harg6 arg7 harg7 arg8 harg8 arg9 harg9 arg10 harg10 hc1 hc2 hc3 hc4 xs wi ws (lbs t) (ubs t) a hi hs).1)) hi hs := by
  have h1 := mt (hcond1 t).mpr hc1
  have h2 := mt (hcond2 t).mpr hc2
  have h3 := (hcond3 t).mp hc3
  obtain ⟨hP, hA⟩ := hInv
  unfold runReuseMid; dsimp only; sl_unfold_run_names
  simp only [readAt_unread_eq_ld, ld_whole]
  rw [read_writes_cons_whole]
  rw [ld_rows_eq (t.val % 4) (mod4 _) (hoff2 t), ld_rows_eq (t.val % 4) (mod4 _) (hoff2 t),
    (hP (t.val % 4) (mod4 _) (by have := mod4 t.val; omega)).1, (hP (t.val % 4) (mod4 _) (by have := mod4 t.val; omega)).2]
  refine ⟨fun k hk hkn => hP k hk (by omega), fun h _ hne => ?_⟩
  rw [hA (Nat.lt_of_le_of_lt (Nat.sub_le _ _) t.isLt) (by omega) (by omega)]
  exact (accAt_next xs wi ws lbs ubs t.val t.isLt h2).symm

theorem step_reuseLast (c : Dev nD) (t : Fin cfg0.N)
    (hc1 : ¬cond1 (grid0.coords t)) (hc2 : ¬cond2 (grid0.coords t)) (hc3 : ¬cond3 (grid0.coords t)) (hc4 : cond4 (grid0.coords t))
    (a : Vec F S1024x128 .f32) (hi hs : Vec F S4096x128 .f32) (hInv : Inv xs wi ws lbs ubs t.val a hi hs) :
    Inv xs wi ws lbs ubs (t.val + 1) a hi hs := by
  have h1 := mt (hcond1 t).mpr hc1
  have h4 := (hcond4 t).mp hc4
  obtain ⟨hP, hA⟩ := hInv
  exact ⟨fun k hk hkn => hP k hk (by omega), fun h _ hne => absurd h4 hne⟩

theorem out_reuseLast (c : Dev nD) (t : Fin cfg0.N) (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : ¬cond1 (grid0.coords t)) (hc2 : ¬cond2 (grid0.coords t)) (hc3 : ¬cond3 (grid0.coords t)) (hc4 : cond4 (grid0.coords t))
    (a : Vec F S1024x128 .f32) (hi hs : Vec F S4096x128 .f32) (hInv : Inv xs wi ws lbs ubs t.val a hi hs)
    (f : arg7.view.ty.Contents (Elt F)) :
    arg7.view.read (Elt F) (arg7.view.writes (Elt F) f (runReuseLast c (grid0.coords t) arg2 harg2 arg3 harg3 arg4 harg4 arg5 harg5 arg6 harg6 arg7 harg7 arg8 harg8 arg9 harg9 arg10 harg10 hc1 hc2 hc3 hc4 xs wi ws (lbs t) (ubs t) a hi hs).1) = outAt xs wi ws lbs ubs t.val t.isLt := by
  have h1 := mt (hcond1 t).mpr hc1
  have h4 := (hcond4 t).mp hc4
  obtain ⟨hP, hA⟩ := hInv
  unfold runReuseLast; dsimp only; sl_unfold_run_names
  simp only [readAt_unread_eq_ld, ld_whole]
  rw [read_writes_cons_whole]
  rw [ld_rows_eq (t.val % 4) (mod4 _) (hoff2 t), ld_rows_eq (t.val % 4) (mod4 _) (hoff2 t),
    (hP (t.val % 4) (mod4 _) (by have := mod4 t.val; omega)).1, (hP (t.val % 4) (mod4 _) (by have := mod4 t.val; omega)).2]
  rw [hA (Nat.lt_of_le_of_lt (Nat.sub_le _ _) t.isLt) (by omega) (by omega)]
  rfl

end Cert.Kernel.Hand

end
-- ==== Proof.BodyW.lean ====
/-
  The proof data of the pipeline and the body obligation.
  Arrays: as the region finds them. After the body at a point every input window's buffer holds its block; the result
  window's holds the closed-form block (consulted only where k = 3: elsewhere the window is idle and not written back).
  The invariant before point n holds the three scratch buffers at SOME contents satisfying the invariant of the
  closed forms (the rows of the projections not yet computed, and the accumulator after a block row closes, hold
  whatever they held), and the generator register at some state. At each point the case is decided by the closed
  forms of the four conditions; the case's run applies, and the case's step lemma re-establishes the invariant.
-/
import proofs.«105109_g26044681683717_cont_sun_m_400_16_alg».proof.Proof.StepsW
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_pos : 0 < cfg0.N := by have : cfg0.N = 16 := N_0; omega

/-- The input x, the two weights (whole-array windows: the same block at every point), and the two neighbourhood
    matrices' blocks point by point. -/
def xsV (c : Dev nD) : Vec F S4096x128 .f32 := iblk m c 0 ⟨0, N_pos⟩
def wiV (c : Dev nD) : Vec F S128x128 .f32 := iblk m c 1 ⟨0, N_pos⟩
def wsV (c : Dev nD) : Vec F S128x128 .f32 := iblk m c 2 ⟨0, N_pos⟩
def lbsV (c : Dev nD) (t : Fin cfg0.N) : Vec F S1024x1024 .f32 := iblk m c 3 t
def ubsV (c : Dev nD) (t : Fin cfg0.N) : Vec F S1024x1024 .f32 := iblk m c 4 t

theorem iblk0_eq (c : Dev nD) (t : Fin cfg0.N) : iblk m c 0 t = xsV m c := rfl
theorem iblk1_eq (c : Dev nD) (t : Fin cfg0.N) : iblk m c 1 t = wiV m c := rfl
theorem iblk2_eq (c : Dev nD) (t : Fin cfg0.N) : iblk m c 2 t = wsV m c := rfl
theorem iblk3_eq (c : Dev nD) (t : Fin cfg0.N) : iblk m c 3 t = lbsV m c t := rfl
theorem iblk4_eq (c : Dev nD) (t : Fin cfg0.N) : iblk m c 4 t = ubsV m c t := rfl

/-- The result block of point t in closed form. -/
def outV (c : Dev nD) (t : Fin cfg0.N) : Vec F S1024x128 .f32 :=
  outAt (xsV m c) (wiV m c) (wsV m c) (lbsV m c) (ubsV m c) t.val t.isLt

/-- The region invariant before point n. -/
def PhiS (c : Dev nD) (n : ℕ) : sProp 𝕄 :=
  iprop(iprop(∃ a hi hs, ⌜Inv (xsV m c) (wiV m c) (wsV m c) (lbsV m c) (ubsV m c) n a hi hs⌝
      ∗ owns (c : Thread nD τ) scA fullShare a ∗ owns (c : Thread nD τ) scI fullShare hi ∗ owns (c : Thread nD τ) scS fullShare hs)
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outV m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outV m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  simp only [iblk0_eq, iblk1_eq, iblk2_eq, iblk3_eq, iblk4_eq]
  unfold PhiS
  have hN : t.val < 16 := lt_of_lt_of_eq t.isLt (show cfg0.N = 16 from N_0)
  by_cases h1 : t.val < 4
  · have hc1 : cond1 (grid0.coords t) := (hcond1 t).mpr h1
    by_cases h2 : t.val % 4 = 0
    · have hc2 : cond2 (grid0.coords t) := (hcond2 t).mpr h2
      have hc3 : cond3 (grid0.coords t) := (hcond3 t).mpr (by omega)
      have hc4 : ¬cond4 (grid0.coords t) := fun h => by have := (hcond4 t).mp h; omega
      rw [Dat.leavesExact_idle (dats m 0 c) 5 t (idleAt5 t hc4) (noFlush5 t hc4)]
      iintro ⟨⟨⟨%a, %hi, %hs, %hInv, HA, HI, HS⟩, Hg⟩, Ho, ⟨%d0, H0⟩, ⟨%d1, H1⟩, ⟨%d2, H2⟩, ⟨%d3, H3⟩, ⟨%d4, H4⟩, ⟨%d5, H5⟩⟩
      iapply ((runProjFirst c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HI]; · iexact HI
      isplitl [HS]; · iexact HS
      iintro ⟨H0, H1, H2, H3, H4, H5, HA, HI, HS⟩
      isplitl [HA HI HS Hg]
      · isplitl [HA HI HS]
        · iexists (scA.view.read (Elt F) (scA.view.writes (Elt F) ((Memref.isWhole_whole _).unread a) (runProjFirst c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).1)), (scI.view.read (Elt F) (scI.view.writes (Elt F) ((Memref.isWhole_whole _).unread hi) (runProjFirst c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.1)), (scS.view.read (Elt F) (scS.view.writes (Elt F) ((Memref.isWhole_whole _).unread hs) (runProjFirst c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.2.1))
          isplitr; · ipureintro; exact step_projFirst (xsV m c) (wiV m c) (wsV m c) (lbsV m c) (ubsV m c) c t (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 a hi hs hInv
          isplitl [HA]
          · unfold owns; iexists _; isplitr
            · ipureintro; rfl
            iexact HA
          isplitl [HI]
          · unfold owns; iexists _; isplitr
            · ipureintro; rfl
            iexact HI
          unfold owns; iexists _; isplitr
          · ipureintro; rfl
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have hc2 : ¬cond2 (grid0.coords t) := fun h => h2 ((hcond2 t).mp h)
      by_cases h4 : t.val % 4 = 3
      · have hc3 : ¬cond3 (grid0.coords t) := fun h => by have := (hcond3 t).mp h; omega
        have hc4 : cond4 (grid0.coords t) := (hcond4 t).mpr h4
        rw [show (dats m 0 c).leavesExact 5 t = owns (c : Thread nD τ) (ms5 t) fullShare ((dats m 0 c).after 5 t) from by
            unfold Dat.leavesExact; rw [liveAt5 t hc4], after5]
        iintro ⟨⟨⟨%a, %hi, %hs, %hInv, HA, HI, HS⟩, Hg⟩, Ho, ⟨%d0, H0⟩, ⟨%d1, H1⟩, ⟨%d2, H2⟩, ⟨%d3, H3⟩, ⟨%d4, H4⟩, ⟨%d5, H5⟩⟩
        iapply ((runProjLast c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HA]; · iexact HA
        isplitl [HI]; · iexact HI
        isplitl [HS]; · iexact HS
        iintro ⟨H0, H1, H2, H3, H4, ⟨%f7, H5⟩, HA, HI, HS⟩
        isplitl [HA HI HS Hg]
        · isplitl [HA HI HS]
          · iexists a, (scI.view.read (Elt F) (scI.view.writes (Elt F) ((Memref.isWhole_whole _).unread hi) (runProjLast c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.1)), (scS.view.read (Elt F) (scS.view.writes (Elt F) ((Memref.isWhole_whole _).unread hs) (runProjLast c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.2.1))
            isplitr; · ipureintro; exact step_projLast (xsV m c) (wiV m c) (wsV m c) (lbsV m c) (ubsV m c) c t (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 a hi hs hInv
            isplitl [HA]
            · iexact HA
            isplitl [HI]
            · unfold owns; iexists _; isplitr
              · ipureintro; rfl
              iexact HI
            unfold owns; iexists _; isplitr
            · ipureintro; rfl
            iexact HS
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact out_projLast (xsV m c) (wiV m c) (wsV m c) (lbsV m c) (ubsV m c) c t (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 a hi hs hInv _
      · have hc3 : cond3 (grid0.coords t) := (hcond3 t).mpr (by omega)
        have hc4 : ¬cond4 (grid0.coords t) := fun h => h4 ((hcond4 t).mp h)
        rw [Dat.leavesExact_idle (dats m 0 c) 5 t (idleAt5 t hc4) (noFlush5 t hc4)]
        iintro ⟨⟨⟨%a, %hi, %hs, %hInv, HA, HI, HS⟩, Hg⟩, Ho, ⟨%d0, H0⟩, ⟨%d1, H1⟩, ⟨%d2, H2⟩, ⟨%d3, H3⟩, ⟨%d4, H4⟩, ⟨%d5, H5⟩⟩
        iapply ((runProjMid c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HA]; · iexact HA
        isplitl [HI]; · iexact HI
        isplitl [HS]; · iexact HS
        iintro ⟨H0, H1, H2, H3, H4, H5, HA, HI, HS⟩
        isplitl [HA HI HS Hg]
        · isplitl [HA HI HS]
          · iexists (scA.view.read (Elt F) (scA.view.writes (Elt F) ((Memref.isWhole_whole _).unread a) (runProjMid c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).1)), (scI.view.read (Elt F) (scI.view.writes (Elt F) ((Memref.isWhole_whole _).unread hi) (runProjMid c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.1)), (scS.view.read (Elt F) (scS.view.writes (Elt F) ((Memref.isWhole_whole _).unread hs) (runProjMid c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.2.1))
            isplitr; · ipureintro; exact step_projMid (xsV m c) (wiV m c) (wsV m c) (lbsV m c) (ubsV m c) c t (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 a hi hs hInv
            isplitl [HA]
            · unfold owns; iexists _; isplitr
              · ipureintro; rfl
              iexact HA
            isplitl [HI]
            · unfold owns; iexists _; isplitr
              · ipureintro; rfl
              iexact HI
            unfold owns; iexists _; isplitr
            · ipureintro; rfl
            iexact HS
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hc1 : ¬cond1 (grid0.coords t) := fun h => h1 ((hcond1 t).mp h)
    by_cases h2 : t.val % 4 = 0
    · have hc2 : cond2 (grid0.coords t) := (hcond2 t).mpr h2
      have hc3 : cond3 (grid0.coords t) := (hcond3 t).mpr (by omega)
      have hc4 : ¬cond4 (grid0.coords t) := fun h => by have := (hcond4 t).mp h; omega
      rw [Dat.leavesExact_idle (dats m 0 c) 5 t (idleAt5 t hc4) (noFlush5 t hc4)]
      iintro ⟨⟨⟨%a, %hi, %hs, %hInv, HA, HI, HS⟩, Hg⟩, Ho, ⟨%d0, H0⟩, ⟨%d1, H1⟩, ⟨%d2, H2⟩, ⟨%d3, H3⟩, ⟨%d4, H4⟩, ⟨%d5, H5⟩⟩
      iapply ((runReuseFirst c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HI]; · iexact HI
      isplitl [HS]; · iexact HS
      iintro ⟨H0, H1, H2, H3, H4, H5, HA, HI, HS⟩
      isplitl [HA HI HS Hg]
      · isplitl [HA HI HS]
        · iexists (scA.view.read (Elt F) (scA.view.writes (Elt F) ((Memref.isWhole_whole _).unread a) (runReuseFirst c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).1)), hi, hs
          isplitr; · ipureintro; exact step_reuseFirst (xsV m c) (wiV m c) (wsV m c) (lbsV m c) (ubsV m c) c t (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 a hi hs hInv
          isplitl [HA]
          · unfold owns; iexists _; isplitr
            · ipureintro; rfl
            iexact HA
          isplitl [HI]
          · iexact HI
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have hc2 : ¬cond2 (grid0.coords t) := fun h => h2 ((hcond2 t).mp h)
      by_cases h4 : t.val % 4 = 3
      · have hc3 : ¬cond3 (grid0.coords t) := fun h => by have := (hcond3 t).mp h; omega
        have hc4 : cond4 (grid0.coords t) := (hcond4 t).mpr h4
        rw [show (dats m 0 c).leavesExact 5 t = owns (c : Thread nD τ) (ms5 t) fullShare ((dats m 0 c).after 5 t) from by
            unfold Dat.leavesExact; rw [liveAt5 t hc4], after5]
        iintro ⟨⟨⟨%a, %hi, %hs, %hInv, HA, HI, HS⟩, Hg⟩, Ho, ⟨%d0, H0⟩, ⟨%d1, H1⟩, ⟨%d2, H2⟩, ⟨%d3, H3⟩, ⟨%d4, H4⟩, ⟨%d5, H5⟩⟩
        iapply ((runReuseLast c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HA]; · iexact HA
        isplitl [HI]; · iexact HI
        isplitl [HS]; · iexact HS
        iintro ⟨H0, H1, H2, H3, H4, ⟨%f7, H5⟩, HA, HI, HS⟩
        isplitl [HA HI HS Hg]
        · isplitl [HA HI HS]
          · iexists a, hi, hs
            isplitr; · ipureintro; exact step_reuseLast (xsV m c) (wiV m c) (wsV m c) (lbsV m c) (ubsV m c) c t hc1 hc2 hc3 hc4 a hi hs hInv
            isplitl [HA]
            · iexact HA
            isplitl [HI]
            · iexact HI
            iexact HS
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact out_reuseLast (xsV m c) (wiV m c) (wsV m c) (lbsV m c) (ubsV m c) c t (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 a hi hs hInv _
      · have hc3 : cond3 (grid0.coords t) := (hcond3 t).mpr (by omega)
        have hc4 : ¬cond4 (grid0.coords t) := fun h => h4 ((hcond4 t).mp h)
        rw [Dat.leavesExact_idle (dats m 0 c) 5 t (idleAt5 t hc4) (noFlush5 t hc4)]
        iintro ⟨⟨⟨%a, %hi, %hs, %hInv, HA, HI, HS⟩, Hg⟩, Ho, ⟨%d0, H0⟩, ⟨%d1, H1⟩, ⟨%d2, H2⟩, ⟨%d3, H3⟩, ⟨%d4, H4⟩, ⟨%d5, H5⟩⟩
        iapply ((runReuseMid c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2 _ Set.univ _)
        isplitl [H0]; · iexact H0
        isplitl [H1]; · iexact H1
        isplitl [H2]; · iexact H2
        isplitl [H3]; · iexact H3
        isplitl [H4]; · iexact H4
        isplitl [H5]; · iexact H5
        isplitl [HA]; · iexact HA
        isplitl [HI]; · iexact HI
        isplitl [HS]; · iexact HS
        iintro ⟨H0, H1, H2, H3, H4, H5, HA, HI, HS⟩
        isplitl [HA HI HS Hg]
        · isplitl [HA HI HS]
          · iexists (scA.view.read (Elt F) (scA.view.writes (Elt F) ((Memref.isWhole_whole _).unread a) (runReuseMid c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).1)), hi, hs
            isplitr; · ipureintro; exact step_reuseMid (xsV m c) (wiV m c) (wsV m c) (lbsV m c) (ubsV m c) c t (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 a hi hs hInv
            isplitl [HA]
            · unfold owns; iexists _; isplitr
              · ipureintro; rfl
              iexact HA
            isplitl [HI]
            · iexact HI
            iexact HS
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: the scratch at anything. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%a, HA⟩, ⟨%hi, HI⟩, ⟨%hs, HS⟩⟩, Hg⟩
  isplitl [HA HI HS]
  · iexists a, hi, hs
    isplitr; · ipureintro; exact Inv_zero _ _ _ _ _ a hi hs
    isplitl [HA]; · iexact HA
    isplitl [HI]; · iexact HI
    iexact HS
  iexact Hg

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%a, %hi, %hs, -, HA, HI, HS⟩, Hg⟩
  isplitl [HA HI HS]
  · isplitl [HA]; · iexists _; iexact HA
    isplitl [HI]; · iexists _; iexact HI
    iexists _; iexact HS
  iexact Hg

set_option backward.isDefEq.respectTransparency.types false in
/-- Every weakly fair execution of the program terminates, nothing faulting, with every array of the pipeline at what
    the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.Cases.lean ====
/-
  The grid is 4 × 4: point t = 4·i + k handles block row i of the result (1024 rows) and chunk k of the
  contraction axis (1024 of its 4096 indices). The body has four conditionals on (i, k):
    i = 0  — the two projections' rows of chunk k are computed and kept in scratch,
    k = 0  — the accumulator is zeroed,
    k < 3  — the chunk's partial product is added to the accumulator,
    k = 3  — the accumulator plus the last partial product, clamped below at zero, is the result block.
  Here: the conditions in closed form over the sixteen points, the row offset of chunk k, where the result
  window is idle or written back, and the region invariant with the three scratch buffers named.
-/
import proofs.«105109_g26044681683717_cont_sun_m_400_16_alg».proof.Proof.Gen.KernelIdeal.Frame
import proofs.«105109_g26044681683717_cont_sun_m_400_16_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- i = 0: the projections of chunk k are computed at this point. -/
abbrev cond1 (i : grid0.Coords) : Prop := k0_cond1 i = 1#1
/-- k = 0: the accumulator is zeroed at this point. -/
abbrev cond2 (i : grid0.Coords) : Prop := (Scalar.cmpi .ne (Scalar.extui (Scalar.cmpi .eq (BitVec.ofNat 32 (i 1).val) 0#32)) 0#32) = 1#1
/-- k < 3: the partial product is added into the accumulator. -/
abbrev cond3 (i : grid0.Coords) : Prop := (Scalar.cmpi .ne (Scalar.extui (Scalar.cmpi .slt (BitVec.ofNat 32 (i 1).val) 3#32)) 0#32) = 1#1
/-- k = 3: the result block is written. -/
abbrev cond4 (i : grid0.Coords) : Prop := k0_cond4 i = 1#1

theorem hcond1 : ∀ t : Fin cfg0.N, cond1 (grid0.coords t) ↔ t.val < 4 :=
  (by decide +kernel : ∀ t : Fin grid0.N, cond1 (grid0.coords t) ↔ t.val < 4)
theorem hcond2 : ∀ t : Fin cfg0.N, cond2 (grid0.coords t) ↔ t.val % 4 = 0 :=
  (by decide +kernel : ∀ t : Fin grid0.N, cond2 (grid0.coords t) ↔ t.val % 4 = 0)
theorem hcond3 : ∀ t : Fin cfg0.N, cond3 (grid0.coords t) ↔ t.val % 4 < 3 :=
  (by decide +kernel : ∀ t : Fin grid0.N, cond3 (grid0.coords t) ↔ t.val % 4 < 3)
theorem hcond4 : ∀ t : Fin cfg0.N, cond4 (grid0.coords t) ↔ t.val % 4 = 3 :=
  (by decide +kernel : ∀ t : Fin grid0.N, cond4 (grid0.coords t) ↔ t.val % 4 = 3)

/-- Chunk k of the contraction axis is rows [1024·k, 1024·k + 1024) of a projection. -/
theorem hoff1 : ∀ t : Fin cfg0.N, k0_off1 (grid0.coords t) = ![1024 * (t.val % 4), 0] :=
  (by decide +kernel : ∀ t : Fin grid0.N, k0_off1 (grid0.coords t) = ![1024 * (t.val % 4), 0])
theorem hoff2 : ∀ t : Fin cfg0.N, k0_off2 (grid0.coords t) = ![1024 * (t.val % 4), 0] :=
  (by decide +kernel : ∀ t : Fin grid0.N, k0_off2 (grid0.coords t) = ![1024 * (t.val % 4), 0])

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
/-- Where k ≠ 3 nothing is stored into the result window and its block is not written back. -/
theorem idleAt5 : ∀ t : Fin cfg0.N, ¬cond4 (grid0.coords t) → cfg0.idle 5 (grid0.coords t) = true := by decide +kernel
theorem noFlush5 : ∀ t : Fin cfg0.N, ¬cond4 (grid0.coords t) → (cfg0.win 5).flush t = false := by decide +kernel
theorem liveAt5 : ∀ t : Fin cfg0.N, cond4 (grid0.coords t) → cfg0.idle 5 (grid0.coords t) = false := by decide +kernel

/-! ## The memrefs the body is called with -/

abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x128 .f32 := win0_5.stage (cfg0.slots t 5)
abbrev hs5 (t : Fin cfg0.N) : (ms5 t).IsWhole := hstage0_5 ((cfg0.slots t 5).cast nbuf0_5)
/-- The accumulator and the two projections: whole scratch buffers. -/
abbrev scA : Memref sig .tc .vmem S1024x128 .f32 := Memref.whole cc0_scratch0
abbrev scI : Memref sig .tc .vmem S4096x128 .f32 := Memref.whole cc0_scratch1
abbrev scS : Memref sig .tc .vmem S4096x128 .f32 := Memref.whole cc0_scratch2

/-- The class invariant with the three scratch buffers as memrefs owned at some contents. -/
theorem PhiA0_eq (c : Dev nD) :
    (Pipeline.ΦA spec0 c : sProp 𝕄)
      = iprop(iprop((∃ d, owns (c : Thread nD τ) scA fullShare d) ∗ (∃ d, owns (c : Thread nD τ) scI fullShare d) ∗ (∃ d, owns (c : Thread nD τ) scS fullShare d)) ∗ (∃ r, prngReg c r)) := by
  unfold Pipeline.ΦA; rw [scopedRest0_eq]; simp only [scA, scI, scS, owns_whole]; try rfl

end Cert.KernelIdeal.Hand

end
-- ==== Proof.RunProjFirst.lean ====
/-
  The body at a point of block row 0 (the projections' rows of the chunk are computed and stored), first chunk (the accumulator is zeroed, then holds the chunk's partial product):
  run on whole memrefs at named contents, it ends holding every buffer it only reads as it was and every buffer it
  stores into with the stores listed — the lists are what the run finds.
-/
import proofs.«105109_g26044681683717_cont_sun_m_400_16_alg».proof.Proof.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runProjFirst (c : Dev nD) (i : grid0.Coords)
    (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : cond1 i) (hc2 : cond2 i) (hc3 : cond3 i) (hc4 : ¬cond4 i)
    (x : Vec F S4096x128 .f32) (wi ws : Vec F S128x128 .f32) (lb ub : Vec F S1024x1024 .f32) (a : Vec F S1024x128 .f32) (hi hs : Vec F S4096x128 .f32) :
    Σ' (LA : List (View.Piece (Elt F) S1024x128 .f32)) (LI : List (View.Piece (Elt F) S4096x128 .f32)), { LS : List (View.Piece (Elt F) S4096x128 .f32) //
      ∀ (xo : Vec F S1024x128 .f32) (E : Set ℕ) (K : PUnit → sProp 𝕄),
        iprop(owns (c : Thread nD τ) arg2 fullShare x
            ∗ owns (c : Thread nD τ) arg3 fullShare wi
            ∗ owns (c : Thread nD τ) arg4 fullShare ws
            ∗ owns (c : Thread nD τ) arg5 fullShare lb
            ∗ owns (c : Thread nD τ) arg6 fullShare ub
            ∗ owns (c : Thread nD τ) arg7 fullShare xo
            ∗ owns (c : Thread nD τ) arg8 fullShare a
            ∗ owns (c : Thread nD τ) arg9 fullShare hi
            ∗ owns (c : Thread nD τ) arg10 fullShare hs
            ∗ (iprop(owns (c : Thread nD τ) arg2 fullShare x
                ∗ owns (c : Thread nD τ) arg3 fullShare wi
                ∗ owns (c : Thread nD τ) arg4 fullShare ws
                ∗ owns (c : Thread nD τ) arg5 fullShare lb
                ∗ owns (c : Thread nD τ) arg6 fullShare ub
                ∗ owns (c : Thread nD τ) arg7 fullShare xo
                ∗ (arg8.view.loc (c : Thread nD τ) ↦[arg8.view.set]{fullShare} arg8.view.writes (Elt F) (harg8.unread a) LA)
                ∗ (arg9.view.loc (c : Thread nD τ) ↦[arg9.view.set]{fullShare} arg9.view.writes (Elt F) (harg9.unread hi) LI)
                ∗ (arg10.view.loc (c : Thread nD τ) ↦[arg10.view.set]{fullShare} arg10.view.writes (Elt F) (harg10.unread hs) LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, ?_, ?_, fun xo E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]; · iexact H9
    iexact H10

end Cert.KernelIdeal.Hand

end
-- ==== Proof.RunProjMid.lean ====
/-
  The body at a point of block row 0 (the projections' rows of the chunk are computed and stored), a middle chunk (the chunk's partial product is added into the accumulator):
  run on whole memrefs at named contents, it ends holding every buffer it only reads as it was and every buffer it
  stores into with the stores listed — the lists are what the run finds.
-/
import proofs.«105109_g26044681683717_cont_sun_m_400_16_alg».proof.Proof.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runProjMid (c : Dev nD) (i : grid0.Coords)
    (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : cond1 i) (hc2 : ¬cond2 i) (hc3 : cond3 i) (hc4 : ¬cond4 i)
    (x : Vec F S4096x128 .f32) (wi ws : Vec F S128x128 .f32) (lb ub : Vec F S1024x1024 .f32) (a : Vec F S1024x128 .f32) (hi hs : Vec F S4096x128 .f32) :
    Σ' (LA : List (View.Piece (Elt F) S1024x128 .f32)) (LI : List (View.Piece (Elt F) S4096x128 .f32)), { LS : List (View.Piece (Elt F) S4096x128 .f32) //
      ∀ (xo : Vec F S1024x128 .f32) (E : Set ℕ) (K : PUnit → sProp 𝕄),
        iprop(owns (c : Thread nD τ) arg2 fullShare x
            ∗ owns (c : Thread nD τ) arg3 fullShare wi
            ∗ owns (c : Thread nD τ) arg4 fullShare ws
            ∗ owns (c : Thread nD τ) arg5 fullShare lb
            ∗ owns (c : Thread nD τ) arg6 fullShare ub
            ∗ owns (c : Thread nD τ) arg7 fullShare xo
            ∗ owns (c : Thread nD τ) arg8 fullShare a
            ∗ owns (c : Thread nD τ) arg9 fullShare hi
            ∗ owns (c : Thread nD τ) arg10 fullShare hs
            ∗ (iprop(owns (c : Thread nD τ) arg2 fullShare x
                ∗ owns (c : Thread nD τ) arg3 fullShare wi
                ∗ owns (c : Thread nD τ) arg4 fullShare ws
                ∗ owns (c : Thread nD τ) arg5 fullShare lb
                ∗ owns (c : Thread nD τ) arg6 fullShare ub
                ∗ owns (c : Thread nD τ) arg7 fullShare xo
                ∗ (arg8.view.loc (c : Thread nD τ) ↦[arg8.view.set]{fullShare} arg8.view.writes (Elt F) (harg8.unread a) LA)
                ∗ (arg9.view.loc (c : Thread nD τ) ↦[arg9.view.set]{fullShare} arg9.view.writes (Elt F) (harg9.unread hi) LI)
                ∗ (arg10.view.loc (c : Thread nD τ) ↦[arg10.view.set]{fullShare} arg10.view.writes (Elt F) (harg10.unread hs) LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, ?_, ?_, fun xo E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]; · iexact H9
    iexact H10

end Cert.KernelIdeal.Hand

end
-- ==== Proof.RunProjLast.lean ====
/-
  The body at a point of block row 0 (the projections' rows of the chunk are computed and stored), last chunk (the result block is the accumulator plus the chunk's partial product, clamped below at zero):
  run on whole memrefs at named contents, it ends holding every buffer it only reads as it was and every buffer it
  stores into with the stores listed — the lists are what the run finds.
-/
import proofs.«105109_g26044681683717_cont_sun_m_400_16_alg».proof.Proof.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runProjLast (c : Dev nD) (i : grid0.Coords)
    (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : cond1 i) (hc2 : ¬cond2 i) (hc3 : ¬cond3 i) (hc4 : cond4 i)
    (x : Vec F S4096x128 .f32) (wi ws : Vec F S128x128 .f32) (lb ub : Vec F S1024x1024 .f32) (a : Vec F S1024x128 .f32) (hi hs : Vec F S4096x128 .f32) :
    Σ' (LO : List (View.Piece (Elt F) S1024x128 .f32)) (LI : List (View.Piece (Elt F) S4096x128 .f32)), { LS : List (View.Piece (Elt F) S4096x128 .f32) //
      ∀ (E : Set ℕ) (K : PUnit → sProp 𝕄),
        iprop(owns (c : Thread nD τ) arg2 fullShare x
            ∗ owns (c : Thread nD τ) arg3 fullShare wi
            ∗ owns (c : Thread nD τ) arg4 fullShare ws
            ∗ owns (c : Thread nD τ) arg5 fullShare lb
            ∗ owns (c : Thread nD τ) arg6 fullShare ub
            ∗ (∃ d, owns (c : Thread nD τ) arg7 fullShare d)
            ∗ owns (c : Thread nD τ) arg8 fullShare a
            ∗ owns (c : Thread nD τ) arg9 fullShare hi
            ∗ owns (c : Thread nD τ) arg10 fullShare hs
            ∗ (iprop(owns (c : Thread nD τ) arg2 fullShare x
                ∗ owns (c : Thread nD τ) arg3 fullShare wi
                ∗ owns (c : Thread nD τ) arg4 fullShare ws
                ∗ owns (c : Thread nD τ) arg5 fullShare lb
                ∗ owns (c : Thread nD τ) arg6 fullShare ub
                ∗ (∃ f, arg7.view.loc (c : Thread nD τ) ↦[arg7.view.set]{fullShare} arg7.view.writes (Elt F) f LO)
                ∗ owns (c : Thread nD τ) arg8 fullShare a
                ∗ (arg9.view.loc (c : Thread nD τ) ↦[arg9.view.set]{fullShare} arg9.view.writes (Elt F) (harg9.unread hi) LI)
                ∗ (arg10.view.loc (c : Thread nD τ) ↦[arg10.view.set]{fullShare} arg10.view.writes (Elt F) (harg10.unread hs) LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, ?_, ?_, fun E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6
    obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]; · iexact H9
    iexact H10

end Cert.KernelIdeal.Hand

end
-- ==== Proof.RunReuseFirst.lean ====
/-
  The body at a point of a later block row (the projections are read back from scratch), first chunk (the accumulator is zeroed, then holds the chunk's partial product):
  run on whole memrefs at named contents, it ends holding every buffer it only reads as it was and every buffer it
  stores into with the stores listed — the lists are what the run finds.
-/
import proofs.«105109_g26044681683717_cont_sun_m_400_16_alg».proof.Proof.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runReuseFirst (c : Dev nD) (i : grid0.Coords)
    (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : ¬cond1 i) (hc2 : cond2 i) (hc3 : cond3 i) (hc4 : ¬cond4 i)
    (x : Vec F S4096x128 .f32) (wi ws : Vec F S128x128 .f32) (lb ub : Vec F S1024x1024 .f32) (a : Vec F S1024x128 .f32) (hi hs : Vec F S4096x128 .f32) :
    { LA : List (View.Piece (Elt F) S1024x128 .f32) //
      ∀ (xo : Vec F S1024x128 .f32) (E : Set ℕ) (K : PUnit → sProp 𝕄),
        iprop(owns (c : Thread nD τ) arg2 fullShare x
            ∗ owns (c : Thread nD τ) arg3 fullShare wi
            ∗ owns (c : Thread nD τ) arg4 fullShare ws
            ∗ owns (c : Thread nD τ) arg5 fullShare lb
            ∗ owns (c : Thread nD τ) arg6 fullShare ub
            ∗ owns (c : Thread nD τ) arg7 fullShare xo
            ∗ owns (c : Thread nD τ) arg8 fullShare a
            ∗ owns (c : Thread nD τ) arg9 fullShare hi
            ∗ owns (c : Thread nD τ) arg10 fullShare hs
            ∗ (iprop(owns (c : Thread nD τ) arg2 fullShare x
                ∗ owns (c : Thread nD τ) arg3 fullShare wi
                ∗ owns (c : Thread nD τ) arg4 fullShare ws
                ∗ owns (c : Thread nD τ) arg5 fullShare lb
                ∗ owns (c : Thread nD τ) arg6 fullShare ub
                ∗ owns (c : Thread nD τ) arg7 fullShare xo
                ∗ (arg8.view.loc (c : Thread nD τ) ↦[arg8.view.set]{fullShare} arg8.view.writes (Elt F) (harg8.unread a) LA)
                ∗ owns (c : Thread nD τ) arg9 fullShare hi
                ∗ owns (c : Thread nD τ) arg10 fullShare hs) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, fun xo E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]
    · iexists _; isplitr; · ipureintro; exact harg9.read_unread _
      iexact H9
    iexists _; isplitr; · ipureintro; exact harg10.read_unread _
    iexact H10

end Cert.KernelIdeal.Hand

end
-- ==== Proof.RunReuseMid.lean ====
/-
  The body at a point of a later block row (the projections are read back from scratch), a middle chunk (the chunk's partial product is added into the accumulator):
  run on whole memrefs at named contents, it ends holding every buffer it only reads as it was and every buffer it
  stores into with the stores listed — the lists are what the run finds.
-/
import proofs.«105109_g26044681683717_cont_sun_m_400_16_alg».proof.Proof.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runReuseMid (c : Dev nD) (i : grid0.Coords)
    (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : ¬cond1 i) (hc2 : ¬cond2 i) (hc3 : cond3 i) (hc4 : ¬cond4 i)
    (x : Vec F S4096x128 .f32) (wi ws : Vec F S128x128 .f32) (lb ub : Vec F S1024x1024 .f32) (a : Vec F S1024x128 .f32) (hi hs : Vec F S4096x128 .f32) :
    { LA : List (View.Piece (Elt F) S1024x128 .f32) //
      ∀ (xo : Vec F S1024x128 .f32) (E : Set ℕ) (K : PUnit → sProp 𝕄),
        iprop(owns (c : Thread nD τ) arg2 fullShare x
            ∗ owns (c : Thread nD τ) arg3 fullShare wi
            ∗ owns (c : Thread nD τ) arg4 fullShare ws
            ∗ owns (c : Thread nD τ) arg5 fullShare lb
            ∗ owns (c : Thread nD τ) arg6 fullShare ub
            ∗ owns (c : Thread nD τ) arg7 fullShare xo
            ∗ owns (c : Thread nD τ) arg8 fullShare a
            ∗ owns (c : Thread nD τ) arg9 fullShare hi
            ∗ owns (c : Thread nD τ) arg10 fullShare hs
            ∗ (iprop(owns (c : Thread nD τ) arg2 fullShare x
                ∗ owns (c : Thread nD τ) arg3 fullShare wi
                ∗ owns (c : Thread nD τ) arg4 fullShare ws
                ∗ owns (c : Thread nD τ) arg5 fullShare lb
                ∗ owns (c : Thread nD τ) arg6 fullShare ub
                ∗ owns (c : Thread nD τ) arg7 fullShare xo
                ∗ (arg8.view.loc (c : Thread nD τ) ↦[arg8.view.set]{fullShare} arg8.view.writes (Elt F) (harg8.unread a) LA)
                ∗ owns (c : Thread nD τ) arg9 fullShare hi
                ∗ owns (c : Thread nD τ) arg10 fullShare hs) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, fun xo E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]
    · iexists _; isplitr; · ipureintro; exact harg9.read_unread _
      iexact H9
    iexists _; isplitr; · ipureintro; exact harg10.read_unread _
    iexact H10

end Cert.KernelIdeal.Hand

end
-- ==== Proof.RunReuseLast.lean ====
/-
  The body at a point of a later block row (the projections are read back from scratch), last chunk (the result block is the accumulator plus the chunk's partial product, clamped below at zero):
  run on whole memrefs at named contents, it ends holding every buffer it only reads as it was and every buffer it
  stores into with the stores listed — the lists are what the run finds.
-/
import proofs.«105109_g26044681683717_cont_sun_m_400_16_alg».proof.Proof.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runReuseLast (c : Dev nD) (i : grid0.Coords)
    (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : ¬cond1 i) (hc2 : ¬cond2 i) (hc3 : ¬cond3 i) (hc4 : cond4 i)
    (x : Vec F S4096x128 .f32) (wi ws : Vec F S128x128 .f32) (lb ub : Vec F S1024x1024 .f32) (a : Vec F S1024x128 .f32) (hi hs : Vec F S4096x128 .f32) :
    { LO : List (View.Piece (Elt F) S1024x128 .f32) //
      ∀ (E : Set ℕ) (K : PUnit → sProp 𝕄),
        iprop(owns (c : Thread nD τ) arg2 fullShare x
            ∗ owns (c : Thread nD τ) arg3 fullShare wi
            ∗ owns (c : Thread nD τ) arg4 fullShare ws
            ∗ owns (c : Thread nD τ) arg5 fullShare lb
            ∗ owns (c : Thread nD τ) arg6 fullShare ub
            ∗ (∃ d, owns (c : Thread nD τ) arg7 fullShare d)
            ∗ owns (c : Thread nD τ) arg8 fullShare a
            ∗ owns (c : Thread nD τ) arg9 fullShare hi
            ∗ owns (c : Thread nD τ) arg10 fullShare hs
            ∗ (iprop(owns (c : Thread nD τ) arg2 fullShare x
                ∗ owns (c : Thread nD τ) arg3 fullShare wi
                ∗ owns (c : Thread nD τ) arg4 fullShare ws
                ∗ owns (c : Thread nD τ) arg5 fullShare lb
                ∗ owns (c : Thread nD τ) arg6 fullShare ub
                ∗ (∃ f, arg7.view.loc (c : Thread nD τ) ↦[arg7.view.set]{fullShare} arg7.view.writes (Elt F) f LO)
                ∗ owns (c : Thread nD τ) arg8 fullShare a
                ∗ owns (c : Thread nD τ) arg9 fullShare hi
                ∗ owns (c : Thread nD τ) arg10 fullShare hs) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, fun E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6
    obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]
    · iexists _; isplitr; · ipureintro; exact harg9.read_unread _
      iexact H9
    iexists _; isplitr; · ipureintro; exact harg10.read_unread _
    iexact H10

end Cert.KernelIdeal.Hand

end
-- ==== Proof.Contents.lean ====
/-
  What the scratch buffers and the result window hold after each point, in closed form over the argument arrays'
  blocks, at any float instance.
  Chunk k (k < 4) of a 4096-row array is its rows [1024·k, 1024·k + 1024). With x the input, W_irr, W_sol the weights
  and L_t, U_t the two neighbourhood blocks of point t = 4·i + k:
    projI k = chunk k of x times W_irr,   projS k = chunk k of x times W_sol     (rows of the two projections),
    accAt t = L_t·projI k + U_t·projS k  added to zero (k = 0) or to accAt (t − 1) (k = 1, 2),
    outAt t = max(accAt (t − 1) + L_t·projI 3 + U_t·projS 3, 0)                    (k = 3).
  The invariant before point n: the projections' chunks below n are in place in the two projection scratches, and,
  unless the previous point closed a block row, the accumulator scratch holds accAt (n − 1).
  Also: how a value loaded from a whole memref held at named contents reads as a function of those contents.
-/
import proofs.«105109_g26044681683717_cont_sun_m_400_16_alg».proof.Proof.Cases
import Idealize.ShloMosaic.Lib.Pipeline.Value
import Idealize.ShloMosaic.Lib.WholeRead
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl

theorem rows_inb (k : ℕ) (hk : k < 4) : ∀ a, (![1024 * k, 0] : Fin 2 → ℕ) a + S1024x128.size a ≤ S4096x128.size a :=
  Fin.forall_fin_two.mpr ⟨by show 1024 * k + 1024 ≤ 4096; omega, by show 0 + 128 ≤ 128; omega⟩

/-- Rows [1024·k, 1024·k + 1024) of a 4096 × 128 array, all columns. -/
abbrev rowsRect (k : ℕ) (hk : k < 4) : Rect S4096x128 := Rect.unit ![1024 * k, 0] S1024x128.size (rows_inb k hk)

/-- Chunk k of a 4096-row array. -/
def chunk (k : ℕ) (hk : k < 4) (h : Vec F S4096x128 .f32) : Vec F S1024x128 .f32 := View.ld (Val := Elt F) h (rowsRect k hk)

/-- A chunk read through any spelling of its offsets. -/
theorem ld_rows_eq {off : Fin 2 → ℕ} (k : ℕ) (hk : k < 4) (ho : off = ![1024 * k, 0]) (inb : ∀ a, off a + S1024x128.size a ≤ S4096x128.size a)
    (h : Vec F S4096x128 .f32) : View.ld (Val := Elt F) h (Rect.unit (s := S4096x128) off S1024x128.size inb) = chunk k hk h := by
  subst ho; rfl

/-- A load through a unit-stride rectangle of a whole memref held at the contents that read `X` reads `X` there. -/
theorem readAt_unread_eq_ld {κ : Kind} {sp : Space} {s : Shape} {m : Memref sig κ sp s .f32} (h : m.IsWhole) (X : s.Idx → Elt F .f32)
    (r : Rect s) : View.readAt (Elt F) m.view r.toLoadRect (h.unread X) = View.ld (Val := Elt F) X r := by
  show View.ld (Val := Elt F) (m.view.read (Elt F) (h.unread X)) r = _
  rw [h.read_unread]

/-- A store through the whole of a rank-2 buffer, last, leaves its payload, whatever came before. -/
theorem read_writes_cons_whole {κ : Kind} {sp : Space} {d : Fin 2 → ℕ} (v : View sig κ sp (⟨2, d⟩ : Shape) .f32) (f : v.ty.Contents (Elt F))
    (inb : ∀ a : Fin 2, (![0, 0] : Fin 2 → ℕ) a + d a ≤ d a) (w : (Rect.unit (s := ⟨2, d⟩) ![0, 0] d inb).shape.Idx → Elt F .f32)
    (L : List (View.Piece (Elt F) (⟨2, d⟩ : Shape) .f32)) :
    v.read (Elt F) (v.writes (Elt F) f (⟨Rect.unit (s := ⟨2, d⟩) ![0, 0] d inb, w⟩ :: L)) = w :=
  funext fun y => View.read_writes_cons_unit_of_mem v f inb w L y y rfl
    (Fin.forall_fin_two.mpr ⟨(Nat.zero_add _).symm, (Nat.zero_add _).symm⟩)

/-- A load of the whole of a rank-2 array reads the array. -/
theorem ld_whole {d : Fin 2 → ℕ} (inb : ∀ a : Fin 2, (![0, 0] : Fin 2 → ℕ) a + d a ≤ d a) (X : (⟨2, d⟩ : Shape).Idx → Elt F .f32) :
    View.ld (Val := Elt F) X (Rect.unit (s := ⟨2, d⟩) ![0, 0] d inb) = X := View.ld_unit_zero hz2 inb X

/-- After rows of chunk j are overwritten by `w`, chunk j reads `w`; -/
theorem chunk_store_same {κ : Kind} {sp : Space} (v : View sig κ sp S4096x128 .f32) (f : v.ty.Contents (Elt F)) {off : Fin 2 → ℕ}
    (j : ℕ) (hj : j < 4) (ho : off = ![1024 * j, 0]) (inb : ∀ a, off a + S1024x128.size a ≤ S4096x128.size a)
    (w : (Rect.unit (s := S4096x128) off S1024x128.size inb).shape.Idx → Elt F .f32) (L : List (View.Piece (Elt F) S4096x128 .f32)) :
    chunk j hj (v.read (Elt F) (v.writes (Elt F) f (⟨Rect.unit (s := S4096x128) off S1024x128.size inb, w⟩ :: L))) = w :=
  funext fun y => View.read_writes_cons_unit_of_mem v f inb w L _ y ho fun a => by
    show (![1024 * j, 0] : Fin 2 → ℕ) a + 1 * (y a).val = _
    rw [Nat.one_mul]

/-- and every other chunk reads what it read before. -/
theorem chunk_store_other {κ : Kind} {sp : Space} (v : View sig κ sp S4096x128 .f32) (f : v.ty.Contents (Elt F)) {off : Fin 2 → ℕ}
    (j : ℕ) (hj : j < 4) (ho : off = ![1024 * j, 0]) (inb : ∀ a, off a + S1024x128.size a ≤ S4096x128.size a)
    (w : (Rect.unit (s := S4096x128) off S1024x128.size inb).shape.Idx → Elt F .f32) (L : List (View.Piece (Elt F) S4096x128 .f32))
    (k : ℕ) (hk : k < 4) (hne : k ≠ j) :
    chunk k hk (v.read (Elt F) (v.writes (Elt F) f (⟨Rect.unit (s := S4096x128) off S1024x128.size inb, w⟩ :: L)))
      = chunk k hk (v.read (Elt F) (v.writes (Elt F) f L)) :=
  funext fun y => View.read_writes_cons_rows_of_not_mem (d := ![4096, 128]) v f inb w L _ ho (W := 1024) rfl (by
    have hy : (y 0).val < 1024 := (y 0).isLt
    show (1024 * k + 1 * (y 0).val) < 1024 * j ∨ 1024 * j + 1024 ≤ (1024 * k + 1 * (y 0).val)
    omega)

/-- A load through the last store's rectangle, its offsets spelt another way, reads that store's payload. -/
theorem readCov_cons_unit_eq {κ : Kind} {sp : Space} {s : Shape} (v : View sig κ sp s .f32) {off off' : Fin s.rank → ℕ} (h : off' = off)
    (size : Fin s.rank → ℕ) (inb : ∀ a, off a + size a ≤ s.size a) (inb' : ∀ a, off' a + size a ≤ s.size a)
    (w : (Rect.unit off size inb).shape.Idx → Elt F .f32) (L : List (View.Piece (Elt F) s .f32)) :
    v.readCov (⟨Rect.unit off size inb, w⟩ :: L) (Rect.unit off' size inb').toLoadRect = w := by
  subst h; exact View.readCov_cons_toLoadRect v _ w L

/-- The two spellings of a chunk's row offset in the body are one function of the point. -/
theorem off2_eq_off1 (i : grid0.Coords) : k0_off2 i = k0_off1 i := rfl

section Closed

variable (xs : Vec F S4096x128 .f32) (wi ws : Vec F S128x128 .f32) (lbs ubs : Fin cfg0.N → Vec F S1024x1024 .f32)

/-- Chunk k of the first projection: chunk k of x times W_irr. -/
def projI (k : ℕ) (hk : k < 4) : Vec F S1024x128 .f32 := k0_pay1 (chunk k hk xs) wi
/-- Chunk k of the second projection: chunk k of x times W_sol. -/
def projS (k : ℕ) (hk : k < 4) : Vec F S1024x128 .f32 := k0_pay2 (chunk k hk xs) ws

theorem mod4 (n : ℕ) : n % 4 < 4 := Nat.mod_lt _ (by decide)

/-- The accumulator after point n, where the point adds into it (k < 3). -/
def accAt : (n : ℕ) → n < cfg0.N → Vec F S1024x128 .f32
  | 0, h => k0_pay5 (projI xs wi (0 % 4) (mod4 0)) (projS xs ws (0 % 4) (mod4 0)) (lbs ⟨0, h⟩) (ubs ⟨0, h⟩) k0_pay3
  | n + 1, h => k0_pay5 (projI xs wi ((n + 1) % 4) (mod4 _)) (projS xs ws ((n + 1) % 4) (mod4 _)) (lbs ⟨n + 1, h⟩) (ubs ⟨n + 1, h⟩)
      (if (n + 1) % 4 = 0 then k0_pay3 else accAt n (Nat.lt_of_succ_lt h))

theorem accAt_first (n : ℕ) (h : n < cfg0.N) (hz : n % 4 = 0) :
    accAt xs wi ws lbs ubs n h = k0_pay5 (projI xs wi (n % 4) (mod4 n)) (projS xs ws (n % 4) (mod4 n)) (lbs ⟨n, h⟩) (ubs ⟨n, h⟩) k0_pay3 := by
  cases n with
  | zero => rfl
  | succ n => show k0_pay5 _ _ _ _ (if (n + 1) % 4 = 0 then _ else _) = _; rw [if_pos hz]

theorem accAt_next (n : ℕ) (h : n < cfg0.N) (hz : n % 4 ≠ 0) :
    accAt xs wi ws lbs ubs n h = k0_pay5 (projI xs wi (n % 4) (mod4 n)) (projS xs ws (n % 4) (mod4 n)) (lbs ⟨n, h⟩) (ubs ⟨n, h⟩)
      (accAt xs wi ws lbs ubs (n - 1) (Nat.lt_of_le_of_lt (Nat.sub_le _ _) h)) := by
  cases n with
  | zero => exact absurd rfl hz
  | succ n => show k0_pay5 _ _ _ _ (if (n + 1) % 4 = 0 then _ else _) = _; rw [if_neg hz]; rfl

/-- The result block written at point n (k = 3). -/
def outAt (n : ℕ) (h : n < cfg0.N) : Vec F S1024x128 .f32 :=
  k0_pay6 (projI xs wi (n % 4) (mod4 n)) (projS xs ws (n % 4) (mod4 n)) (lbs ⟨n, h⟩) (ubs ⟨n, h⟩)
    (accAt xs wi ws lbs ubs (n - 1) (Nat.lt_of_le_of_lt (Nat.sub_le _ _) h))

/-- Before point n: the projections' chunks below n are stored, and the accumulator holds the running sum unless the
    point before closed its block row. -/
def Inv (n : ℕ) (a : Vec F S1024x128 .f32) (hi hs : Vec F S4096x128 .f32) : Prop :=
  (∀ k (hk : k < 4), k < n → chunk k hk hi = projI xs wi k hk ∧ chunk k hk hs = projS xs ws k hk)
  ∧ (∀ h : n - 1 < cfg0.N, n ≠ 0 → (n - 1) % 4 ≠ 3 → a = accAt xs wi ws lbs ubs (n - 1) h)

theorem Inv_zero (a : Vec F S1024x128 .f32) (hi hs : Vec F S4096x128 .f32) : Inv xs wi ws lbs ubs 0 a hi hs :=
  ⟨fun k _ h => absurd h (Nat.not_lt_zero _), fun _ h _ => absurd rfl h⟩

/-- Storing chunk n of the two projections over buffers holding the chunks below n leaves the chunks below n + 1. -/
theorem chunks_step {κ : Kind} {sp : Space} (vI vS : View sig κ sp S4096x128 .f32) (fI : vI.ty.Contents (Elt F)) (fS : vS.ty.Contents (Elt F))
    (n : ℕ) (hn : n < 4) {off : Fin 2 → ℕ} (ho : off = ![1024 * n, 0]) (inbI inbS : ∀ a, off a + S1024x128.size a ≤ S4096x128.size a)
    (hi hs : Vec F S4096x128 .f32) (hfI : vI.read (Elt F) fI = hi) (hfS : vS.read (Elt F) fS = hs)
    (hP : ∀ k (hk : k < 4), k < n → chunk k hk hi = projI xs wi k hk ∧ chunk k hk hs = projS xs ws k hk) :
    ∀ k (hk : k < 4), k < n + 1 →
      chunk k hk (vI.read (Elt F) (vI.writes (Elt F) fI [⟨Rect.unit (s := S4096x128) off S1024x128.size inbI, projI xs wi n hn⟩])) = projI xs wi k hk
      ∧ chunk k hk (vS.read (Elt F) (vS.writes (Elt F) fS [⟨Rect.unit (s := S4096x128) off S1024x128.size inbS, projS xs ws n hn⟩])) = projS xs ws k hk := by
  intro k hk hkn
  by_cases hkt : k = n
  · subst hkt
    exact ⟨chunk_store_same vI fI k hk ho inbI _ [], chunk_store_same vS fS k hk ho inbS _ []⟩
  · rw [chunk_store_other vI fI n hn ho inbI _ [] k hk hkt, chunk_store_other vS fS n hn ho inbS _ [] k hk hkt,
      View.writes_nil, View.writes_nil, hfI, hfS]
    exact hP k hk (by omega)

end Closed

end Cert.KernelIdeal.Hand

end
-- ==== Proof.Steps.lean ====
/-
  One step of the invariant per case of the body: the contents the run's stores leave in the scratch buffers satisfy the
  invariant before the next point, and at a last chunk the result window's buffer holds the closed-form block.
  In each case the values the body loaded are read back as functions of the buffers' contents (a load after a store
  through the same rows is the stored value; a load of rows stored at an earlier point is the chunk the invariant
  names), after which the stored payloads are the closed forms by unfolding.
-/
import proofs.«105109_g26044681683717_cont_sun_m_400_16_alg».proof.Proof.RunProjFirst
import proofs.«105109_g26044681683717_cont_sun_m_400_16_alg».proof.Proof.RunProjMid
import proofs.«105109_g26044681683717_cont_sun_m_400_16_alg».proof.Proof.RunProjLast
import proofs.«105109_g26044681683717_cont_sun_m_400_16_alg».proof.Proof.RunReuseFirst
import proofs.«105109_g26044681683717_cont_sun_m_400_16_alg».proof.Proof.RunReuseMid
import proofs.«105109_g26044681683717_cont_sun_m_400_16_alg».proof.Proof.RunReuseLast
import proofs.«105109_g26044681683717_cont_sun_m_400_16_alg».proof.Proof.Contents

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (xs : Vec F S4096x128 .f32) (wi ws : Vec F S128x128 .f32) (lbs ubs : Fin cfg0.N → Vec F S1024x1024 .f32)

/-! ## Block row 0: the projections' chunk is stored at this point -/

theorem step_projFirst (c : Dev nD) (t : Fin cfg0.N) (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : cond1 (grid0.coords t)) (hc2 : cond2 (grid0.coords t)) (hc3 : cond3 (grid0.coords t)) (hc4 : ¬cond4 (grid0.coords t))
    (a : Vec F S1024x128 .f32) (hi hs : Vec F S4096x128 .f32) (hInv : Inv xs wi ws lbs ubs t.val a hi hs) :
    Inv xs wi ws lbs ubs (t.val + 1)
      (arg8.view.read (Elt F) (arg8.view.writes (Elt F) (harg8.unread a) (runProjFirst c (grid0.coords t) arg2 harg2 arg3 harg3 arg4 harg4 arg5 harg5 arg6 harg6 arg7 harg7 arg8 harg8 arg9 harg9 arg10 harg10 hc1 hc2 hc3 hc4 xs wi ws (lbs t) (ubs t) a hi hs).1))
      (arg9.view.read (Elt F) (arg9.view.writes (Elt F) (harg9.unread hi) (runProjFirst c (grid0.coords t) arg2 harg2 arg3 harg3 arg4 harg4 arg5 harg5 arg6 harg6 arg7 harg7 arg8 harg8 arg9 harg9 arg10 harg10 hc1 hc2 hc3 hc4 xs wi ws (lbs t) (ubs t) a hi hs).2.1))
      (arg10.view.read (Elt F) (arg10.view.writes (Elt F) (harg10.unread hs) (runProjFirst c (grid0.coords t) arg2 harg2 arg3 harg3 arg4 harg4 arg5 harg5 arg6 harg6 arg7 harg7 arg8 harg8 arg9 harg9 arg10 harg10 hc1 hc2 hc3 hc4 xs wi ws (lbs t) (ubs t) a hi hs).2.2.1)) := by
  have h1 := (hcond1 t).mp hc1
  have h2 := (hcond2 t).mp hc2
  obtain ⟨hP, hA⟩ := hInv
  unfold runProjFirst; dsimp only; sl_unfold_run_names
  simp only [readAt_unread_eq_ld, ld_whole]
  rw [readCov_cons_unit_eq _ (off2_eq_off1 _), readCov_cons_unit_eq _ (off2_eq_off1 _), readCov_cons_unit_eq _ rfl, read_writes_cons_whole]
  rw [ld_rows_eq (t.val % 4) (mod4 _) (hoff1 t)]
  refine ⟨?_, fun h _ hne => ?_⟩
  · intro k hk hkn
    exact chunks_step xs wi ws arg9.view arg10.view (harg9.unread hi) (harg10.unread hs) (t.val % 4) (mod4 _) (hoff1 t) _ _ hi hs
      (harg9.read_unread hi) (harg10.read_unread hs) (fun k hk hkn => hP k hk (by omega)) k hk (by omega)
  · exact (accAt_first xs wi ws lbs ubs t.val t.isLt h2).symm

theorem step_projMid (c : Dev nD) (t : Fin cfg0.N) (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : cond1 (grid0.coords t)) (hc2 : ¬cond2 (grid0.coords t)) (hc3 : cond3 (grid0.coords t)) (hc4 : ¬cond4 (grid0.coords t))
    (a : Vec F S1024x128 .f32) (hi hs : Vec F S4096x128 .f32) (hInv : Inv xs wi ws lbs ubs t.val a hi hs) :
    Inv xs wi ws lbs ubs (t.val + 1)
      (arg8.view.read (Elt F) (arg8.view.writes (Elt F) (harg8.unread a) (runProjMid c (grid0.coords t) arg2 harg2 arg3 harg3 arg4 harg4 arg5 harg5 arg6 harg6 arg7 harg7 arg8 harg8 arg9 harg9 arg10 harg10 hc1 hc2 hc3 hc4 xs wi ws (lbs t) (ubs t) a hi hs).1))
      (arg9.view.read (Elt F) (arg9.view.writes (Elt F) (harg9.unread hi) (runProjMid c (grid0.coords t) arg2 harg2 arg3 harg3 arg4 harg4 arg5 harg5 arg6 harg6 arg7 harg7 arg8 harg8 arg9 harg9 arg10 harg10 hc1 hc2 hc3 hc4 xs wi ws (lbs t) (ubs t) a hi hs).2.1))
      (arg10.view.read (Elt F) (arg10.view.writes (Elt F) (harg10.unread hs) (runProjMid c (grid0.coords t) arg2 harg2 arg3 harg3 arg4 harg4 arg5 harg5 arg6 harg6 arg7 harg7 arg8 harg8 arg9 harg9 arg10 harg10 hc1 hc2 hc3 hc4 xs wi ws (lbs t) (ubs t) a hi hs).2.2.1)) := by
  have h1 := (hcond1 t).mp hc1
  have h2 := mt (hcond2 t).mpr hc2
  have h3 := (hcond3 t).mp hc3
  obtain ⟨hP, hA⟩ := hInv
  unfold runProjMid; dsimp only; sl_unfold_run_names
  simp only [readAt_unread_eq_ld, ld_whole]
  rw [readCov_cons_unit_eq _ (off2_eq_off1 _), readCov_cons_unit_eq _ (off2_eq_off1 _), read_writes_cons_whole]
  rw [ld_rows_eq (t.val % 4) (mod4 _) (hoff1 t)]
  refine ⟨?_, fun h _ hne => ?_⟩
  · intro k hk hkn
    exact chunks_step xs wi ws arg9.view arg10.view (harg9.unread hi) (harg10.unread hs) (t.val % 4) (mod4 _) (hoff1 t) _ _ hi hs
      (harg9.read_unread hi) (harg10.read_unread hs) (fun k hk hkn => hP k hk (by omega)) k hk (by omega)
  · rw [hA (Nat.lt_of_le_of_lt (Nat.sub_le _ _) t.isLt) (by omega) (by omega)]
    exact (accAt_next xs wi ws lbs ubs t.val t.isLt h2).symm

theorem step_projLast (c : Dev nD) (t : Fin cfg0.N) (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : cond1 (grid0.coords t)) (hc2 : ¬cond2 (grid0.coords t)) (hc3 : ¬cond3 (grid0.coords t)) (hc4 : cond4 (grid0.coords t))
    (a : Vec F S1024x128 .f32) (hi hs : Vec F S4096x128 .f32) (hInv : Inv xs wi ws lbs ubs t.val a hi hs) :
    Inv xs wi ws lbs ubs (t.val + 1) a
      (arg9.view.read (Elt F) (arg9.view.writes (Elt F) (harg9.unread hi) (runProjLast c (grid0.coords t) arg2 harg2 arg3 harg3 arg4 harg4 arg5 harg5 arg6 harg6 arg7 harg7 arg8 harg8 arg9 harg9 arg10 harg10 hc1 hc2 hc3 hc4 xs wi ws (lbs t) (ubs t) a hi hs).2.1))
      (arg10.view.read (Elt F) (arg10.view.writes (Elt F) (harg10.unread hs) (runProjLast c (grid0.coords t) arg2 harg2 arg3 harg3 arg4 harg4 arg5 harg5 arg6 harg6 arg7 harg7 arg8 harg8 arg9 harg9 arg10 harg10 hc1 hc2 hc3 hc4 xs wi ws (lbs t) (ubs t) a hi hs).2.2.1)) := by
  have h1 := (hcond1 t).mp hc1
  have h4 := (hcond4 t).mp hc4
  obtain ⟨hP, hA⟩ := hInv
  unfold runProjLast; dsimp only; sl_unfold_run_names
  simp only [readAt_unread_eq_ld, ld_whole]
  rw [ld_rows_eq (t.val % 4) (mod4 _) (hoff1 t)]
  refine ⟨?_, fun h _ hne => absurd h4 hne⟩
  · intro k hk hkn
    exact chunks_step xs wi ws arg9.view arg10.view (harg9.unread hi) (harg10.unread hs) (t.val % 4) (mod4 _) (hoff1 t) _ _ hi hs
      (harg9.read_unread hi) (harg10.read_unread hs) (fun k hk hkn => hP k hk (by omega)) k hk (by omega)

theorem out_projLast (c : Dev nD) (t : Fin cfg0.N) (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : cond1 (grid0.coords t)) (hc2 : ¬cond2 (grid0.coords t)) (hc3 : ¬cond3 (grid0.coords t)) (hc4 : cond4 (grid0.coords t))
    (a : Vec F S1024x128 .f32) (hi hs : Vec F S4096x128 .f32) (hInv : Inv xs wi ws lbs ubs t.val a hi hs)
    (f : arg7.view.ty.Contents (Elt F)) :
    arg7.view.read (Elt F) (arg7.view.writes (Elt F) f (runProjLast c (grid0.coords t) arg2 harg2 arg3 harg3 arg4 harg4 arg5 harg5 arg6 harg6 arg7 harg7 arg8 harg8 arg9 harg9 arg10 harg10 hc1 hc2 hc3 hc4 xs wi ws (lbs t) (ubs t) a hi hs).1) = outAt xs wi ws lbs ubs t.val t.isLt := by
  have h1 := (hcond1 t).mp hc1
  have h4 := (hcond4 t).mp hc4
  obtain ⟨hP, hA⟩ := hInv
  unfold runProjLast; dsimp only; sl_unfold_run_names
  simp only [readAt_unread_eq_ld, ld_whole]
  rw [readCov_cons_unit_eq _ (off2_eq_off1 _), readCov_cons_unit_eq _ (off2_eq_off1 _), read_writes_cons_whole]
  rw [ld_rows_eq (t.val % 4) (mod4 _) (hoff1 t)]
  rw [hA (Nat.lt_of_le_of_lt (Nat.sub_le _ _) t.isLt) (by omega) (by omega)]
  rfl

/-! ## Later block rows: the projections are read back -/

theorem step_reuseFirst (c : Dev nD) (t : Fin cfg0.N) (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : ¬cond1 (grid0.coords t)) (hc2 : cond2 (grid0.coords t)) (hc3 : cond3 (grid0.coords t)) (hc4 : ¬cond4 (grid0.coords t))
    (a : Vec F S1024x128 .f32) (hi hs : Vec F S4096x128 .f32) (hInv : Inv xs wi ws lbs ubs t.val a hi hs) :
    Inv xs wi ws lbs ubs (t.val + 1)
      (arg8.view.read (Elt F) (arg8.view.writes (Elt F) (harg8.unread a) (runReuseFirst c (grid0.coords t) arg2 harg2 arg3 harg3 arg4 harg4 arg5 harg5 arg6 harg6 arg7 harg7 arg8 harg8 arg9 harg9 arg10 harg10 hc1 hc2 hc3 hc4 xs wi ws (lbs t) (ubs t) a hi hs).1)) hi hs := by
  have h1 := mt (hcond1 t).mpr hc1
  have h2 := (hcond2 t).mp hc2
  obtain ⟨hP, hA⟩ := hInv
  unfold runReuseFirst; dsimp only; sl_unfold_run_names
  simp only [readAt_unread_eq_ld, ld_whole]
  rw [readCov_cons_unit_eq _ rfl, read_writes_cons_whole]
  rw [ld_rows_eq (t.val % 4) (mod4 _) (hoff2 t), ld_rows_eq (t.val % 4) (mod4 _) (hoff2 t),
    (hP (t.val % 4) (mod4 _) (by have := mod4 t.val; omega)).1, (hP (t.val % 4) (mod4 _) (by have := mod4 t.val; omega)).2]
  refine ⟨fun k hk hkn => hP k hk (by omega), fun h _ hne => ?_⟩
  exact (accAt_first xs wi ws lbs ubs t.val t.isLt h2).symm

theorem step_reuseMid (c : Dev nD) (t : Fin cfg0.N) (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : ¬cond1 (grid0.coords t)) (hc2 : ¬cond2 (grid0.coords t)) (hc3 : cond3 (grid0.coords t)) (hc4 : ¬cond4 (grid0.coords t))
    (a : Vec F S1024x128 .f32) (hi hs : Vec F S4096x128 .f32) (hInv : Inv xs wi ws lbs ubs t.val a hi hs) :
    Inv xs wi ws lbs ubs (t.val + 1)
      (arg8.view.read (Elt F) (arg8.view.writes (Elt F) (harg8.unread a) (runReuseMid c (grid0.coords t) arg2 harg2 arg3 harg3 arg4 harg4 arg5 harg5 arg6 harg6 arg7 harg7 arg8 harg8 arg9 harg9 arg10 harg10 hc1 hc2 hc3 hc4 xs wi ws (lbs t) (ubs t) a hi hs).1)) hi hs := by
  have h1 := mt (hcond1 t).mpr hc1
  have h2 := mt (hcond2 t).mpr hc2
  have h3 := (hcond3 t).mp hc3
  obtain ⟨hP, hA⟩ := hInv
  unfold runReuseMid; dsimp only; sl_unfold_run_names
  simp only [readAt_unread_eq_ld, ld_whole]
  rw [read_writes_cons_whole]
  rw [ld_rows_eq (t.val % 4) (mod4 _) (hoff2 t), ld_rows_eq (t.val % 4) (mod4 _) (hoff2 t),
    (hP (t.val % 4) (mod4 _) (by have := mod4 t.val; omega)).1, (hP (t.val % 4) (mod4 _) (by have := mod4 t.val; omega)).2]
  refine ⟨fun k hk hkn => hP k hk (by omega), fun h _ hne => ?_⟩
  rw [hA (Nat.lt_of_le_of_lt (Nat.sub_le _ _) t.isLt) (by omega) (by omega)]
  exact (accAt_next xs wi ws lbs ubs t.val t.isLt h2).symm

theorem step_reuseLast (c : Dev nD) (t : Fin cfg0.N)
    (hc1 : ¬cond1 (grid0.coords t)) (hc2 : ¬cond2 (grid0.coords t)) (hc3 : ¬cond3 (grid0.coords t)) (hc4 : cond4 (grid0.coords t))
    (a : Vec F S1024x128 .f32) (hi hs : Vec F S4096x128 .f32) (hInv : Inv xs wi ws lbs ubs t.val a hi hs) :
    Inv xs wi ws lbs ubs (t.val + 1) a hi hs := by
  have h1 := mt (hcond1 t).mpr hc1
  have h4 := (hcond4 t).mp hc4
  obtain ⟨hP, hA⟩ := hInv
  exact ⟨fun k hk hkn => hP k hk (by omega), fun h _ hne => absurd h4 hne⟩

theorem out_reuseLast (c : Dev nD) (t : Fin cfg0.N) (arg2 : Memref sig .tc .vmem S4096x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x128 .f32) (harg7 : arg7.IsWhole)
    (arg8 : Memref sig .tc .vmem S1024x128 .f32) (harg8 : arg8.IsWhole) (arg9 : Memref sig .tc .vmem S4096x128 .f32) (harg9 : arg9.IsWhole)
    (arg10 : Memref sig .tc .vmem S4096x128 .f32) (harg10 : arg10.IsWhole)
    (hc1 : ¬cond1 (grid0.coords t)) (hc2 : ¬cond2 (grid0.coords t)) (hc3 : ¬cond3 (grid0.coords t)) (hc4 : cond4 (grid0.coords t))
    (a : Vec F S1024x128 .f32) (hi hs : Vec F S4096x128 .f32) (hInv : Inv xs wi ws lbs ubs t.val a hi hs)
    (f : arg7.view.ty.Contents (Elt F)) :
    arg7.view.read (Elt F) (arg7.view.writes (Elt F) f (runReuseLast c (grid0.coords t) arg2 harg2 arg3 harg3 arg4 harg4 arg5 harg5 arg6 harg6 arg7 harg7 arg8 harg8 arg9 harg9 arg10 harg10 hc1 hc2 hc3 hc4 xs wi ws (lbs t) (ubs t) a hi hs).1) = outAt xs wi ws lbs ubs t.val t.isLt := by
  have h1 := mt (hcond1 t).mpr hc1
  have h4 := (hcond4 t).mp hc4
  obtain ⟨hP, hA⟩ := hInv
  unfold runReuseLast; dsimp only; sl_unfold_run_names
  simp only [readAt_unread_eq_ld, ld_whole]
  rw [read_writes_cons_whole]
  rw [ld_rows_eq (t.val % 4) (mod4 _) (hoff2 t), ld_rows_eq (t.val % 4) (mod4 _) (hoff2 t),
    (hP (t.val % 4) (mod4 _) (by have := mod4 t.val; omega)).1, (hP (t.val % 4) (mod4 _) (by have := mod4 t.val; omega)).2]
  rw [hA (Nat.lt_of_le_of_lt (Nat.sub_le _ _) t.isLt) (by omega) (by omega)]
  rfl

end Cert.KernelIdeal.Hand

end
-- ==== Proof.Body.lean ====
/-
  The proof data of the pipeline and the body obligation.
  Arrays: as the region finds them. After the body at a point every input window's buffer holds its block; the result
  window's holds the closed-form block (consulted only where k = 3: elsewhere the window is idle and not written back).
  The invariant before point n holds the three scratch buffers at SOME contents satisfying the invariant of the
  closed forms (the rows of the projections not yet computed, and the accumulator after a block row closes, hold
  whatever they held), and the generator register at some state. At each point the case is decided by the closed
  forms of the four conditions; the case's run applies, and the case's step lemma re-establishes the invariant.
-/
import proofs.«105109_g26044681683717_cont_sun_m_400_16_alg».proof.Proof.Steps
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_pos : 0 < cfg0.N := by have : cfg0.N = 16 := N_0; omega

/-- The input x, the two weights (whole-array windows: the same block at every point), and the two neighbourhood
    matrices' blocks point by point. -/
def xsV (c : Dev nD) : Vec F S4096x128 .f32 := iblk m c 0 ⟨0, N_pos⟩
def wiV (c : Dev nD) : Vec F S128x128 .f32 := iblk m c 1 ⟨0, N_pos⟩
def wsV (c : Dev nD) : Vec F S128x128 .f32 := iblk m c 2 ⟨0, N_pos⟩
def lbsV (c : Dev nD) (t : Fin cfg0.N) : Vec F S1024x1024 .f32 := iblk m c 3 t
def ubsV (c : Dev nD) (t : Fin cfg0.N) : Vec F S1024x1024 .f32 := iblk m c 4 t

theorem iblk0_eq (c : Dev nD) (t : Fin cfg0.N) : iblk m c 0 t = xsV m c := rfl
theorem iblk1_eq (c : Dev nD) (t : Fin cfg0.N) : iblk m c 1 t = wiV m c := rfl
theorem iblk2_eq (c : Dev nD) (t : Fin cfg0.N) : iblk m c 2 t = wsV m c := rfl
theorem iblk3_eq (c : Dev nD) (t : Fin cfg0.N) : iblk m c 3 t = lbsV m c t := rfl
theorem iblk4_eq (c : Dev nD) (t : Fin cfg0.N) : iblk m c 4 t = ubsV m c t := rfl

/-- The result block of point t in closed form. -/
def outV (c : Dev nD) (t : Fin cfg0.N) : Vec F S1024x128 .f32 :=
  outAt (xsV m c) (wiV m c) (wsV m c) (lbsV m c) (ubsV m c) t.val t.isLt

/-- The region invariant before point n. -/
def PhiS (c : Dev nD) (n : ℕ) : sProp 𝕄 :=
  iprop(iprop(∃ a hi hs, ⌜Inv (xsV m c) (wiV m c) (wsV m c) (lbsV m c) (ubsV m c) n a hi hs⌝
      ∗ owns (c : Thread nD τ) scA fullShare a ∗ owns (c : Thread nD τ) scI fullShare hi ∗ owns (c : Thread nD τ) scS fullShare hs)
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outV m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outV m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  simp only [iblk0_eq, iblk1_eq, iblk2_eq, iblk3_eq, iblk4_eq]
  unfold PhiS
  have hN : t.val < 16 := lt_of_lt_of_eq t.isLt (show cfg0.N = 16 from N_0)
  by_cases h1 : t.val < 4
  · have hc1 : cond1 (grid0.coords t) := (hcond1 t).mpr h1
    by_cases h2 : t.val % 4 = 0
    · have hc2 : cond2 (grid0.coords t) := (hcond2 t).mpr h2
      have hc3 : cond3 (grid0.coords t) := (hcond3 t).mpr (by omega)
      have hc4 : ¬cond4 (grid0.coords t) := fun h => by have := (hcond4 t).mp h; omega
      rw [Dat.leavesExact_idle (dats m 0 c) 5 t (idleAt5 t hc4) (noFlush5 t hc4)]
      iintro ⟨⟨⟨%a, %hi, %hs, %hInv, HA, HI, HS⟩, Hg⟩, Ho, ⟨%d0, H0⟩, ⟨%d1, H1⟩, ⟨%d2, H2⟩, ⟨%d3, H3⟩, ⟨%d4, H4⟩, ⟨%d5, H5⟩⟩
      iapply ((runProjFirst c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HI]; · iexact HI
      isplitl [HS]; · iexact HS
      iintro ⟨H0, H1, H2, H3, H4, H5, HA, HI, HS⟩
      isplitl [HA HI HS Hg]
      · isplitl [HA HI HS]
        · iexists (scA.view.read (Elt F) (scA.view.writes (Elt F) ((Memref.isWhole_whole _).unread a) (runProjFirst c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).1)), (scI.view.read (Elt F) (scI.view.writes (Elt F) ((Memref.isWhole_whole _).unread hi) (runProjFirst c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.1)), (scS.view.read (Elt F) (scS.view.writes (Elt F) ((Memref.isWhole_whole _).unread hs) (runProjFirst c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.2.1))
          isplitr; · ipureintro; exact step_projFirst (xsV m c) (wiV m c) (wsV m c) (lbsV m c) (ubsV m c) c t (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 a hi hs hInv
          isplitl [HA]
          · unfold owns; iexists _; isplitr
            · ipureintro; rfl
            iexact HA
          isplitl [HI]
          · unfold owns; iexists _; isplitr
            · ipureintro; rfl
            iexact HI
          unfold owns; iexists _; isplitr
          · ipureintro; rfl
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have hc2 : ¬cond2 (grid0.coords t) := fun h => h2 ((hcond2 t).mp h)
      by_cases h4 : t.val % 4 = 3
      · have hc3 : ¬cond3 (grid0.coords t) := fun h => by have := (hcond3 t).mp h; omega
        have hc4 : cond4 (grid0.coords t) := (hcond4 t).mpr h4
        rw [show (dats m 0 c).leavesExact 5 t = owns (c : Thread nD τ) (ms5 t) fullShare ((dats m 0 c).after 5 t) from by
            unfold Dat.leavesExact; rw [liveAt5 t hc4], after5]
        iintro ⟨⟨⟨%a, %hi, %hs, %hInv, HA, HI, HS⟩, Hg⟩, Ho, ⟨%d0, H0⟩, ⟨%d1, H1⟩, ⟨%d2, H2⟩, ⟨%d3, H3⟩, ⟨%d4, H4⟩, ⟨%d5, H5⟩⟩
        iapply ((runProjLast c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HA]; · iexact HA
        isplitl [HI]; · iexact HI
        isplitl [HS]; · iexact HS
        iintro ⟨H0, H1, H2, H3, H4, ⟨%f7, H5⟩, HA, HI, HS⟩
        isplitl [HA HI HS Hg]
        · isplitl [HA HI HS]
          · iexists a, (scI.view.read (Elt F) (scI.view.writes (Elt F) ((Memref.isWhole_whole _).unread hi) (runProjLast c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.1)), (scS.view.read (Elt F) (scS.view.writes (Elt F) ((Memref.isWhole_whole _).unread hs) (runProjLast c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.2.1))
            isplitr; · ipureintro; exact step_projLast (xsV m c) (wiV m c) (wsV m c) (lbsV m c) (ubsV m c) c t (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 a hi hs hInv
            isplitl [HA]
            · iexact HA
            isplitl [HI]
            · unfold owns; iexists _; isplitr
              · ipureintro; rfl
              iexact HI
            unfold owns; iexists _; isplitr
            · ipureintro; rfl
            iexact HS
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact out_projLast (xsV m c) (wiV m c) (wsV m c) (lbsV m c) (ubsV m c) c t (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 a hi hs hInv _
      · have hc3 : cond3 (grid0.coords t) := (hcond3 t).mpr (by omega)
        have hc4 : ¬cond4 (grid0.coords t) := fun h => h4 ((hcond4 t).mp h)
        rw [Dat.leavesExact_idle (dats m 0 c) 5 t (idleAt5 t hc4) (noFlush5 t hc4)]
        iintro ⟨⟨⟨%a, %hi, %hs, %hInv, HA, HI, HS⟩, Hg⟩, Ho, ⟨%d0, H0⟩, ⟨%d1, H1⟩, ⟨%d2, H2⟩, ⟨%d3, H3⟩, ⟨%d4, H4⟩, ⟨%d5, H5⟩⟩
        iapply ((runProjMid c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HA]; · iexact HA
        isplitl [HI]; · iexact HI
        isplitl [HS]; · iexact HS
        iintro ⟨H0, H1, H2, H3, H4, H5, HA, HI, HS⟩
        isplitl [HA HI HS Hg]
        · isplitl [HA HI HS]
          · iexists (scA.view.read (Elt F) (scA.view.writes (Elt F) ((Memref.isWhole_whole _).unread a) (runProjMid c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).1)), (scI.view.read (Elt F) (scI.view.writes (Elt F) ((Memref.isWhole_whole _).unread hi) (runProjMid c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.1)), (scS.view.read (Elt F) (scS.view.writes (Elt F) ((Memref.isWhole_whole _).unread hs) (runProjMid c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2.2.1))
            isplitr; · ipureintro; exact step_projMid (xsV m c) (wiV m c) (wsV m c) (lbsV m c) (ubsV m c) c t (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 a hi hs hInv
            isplitl [HA]
            · unfold owns; iexists _; isplitr
              · ipureintro; rfl
              iexact HA
            isplitl [HI]
            · unfold owns; iexists _; isplitr
              · ipureintro; rfl
              iexact HI
            unfold owns; iexists _; isplitr
            · ipureintro; rfl
            iexact HS
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hc1 : ¬cond1 (grid0.coords t) := fun h => h1 ((hcond1 t).mp h)
    by_cases h2 : t.val % 4 = 0
    · have hc2 : cond2 (grid0.coords t) := (hcond2 t).mpr h2
      have hc3 : cond3 (grid0.coords t) := (hcond3 t).mpr (by omega)
      have hc4 : ¬cond4 (grid0.coords t) := fun h => by have := (hcond4 t).mp h; omega
      rw [Dat.leavesExact_idle (dats m 0 c) 5 t (idleAt5 t hc4) (noFlush5 t hc4)]
      iintro ⟨⟨⟨%a, %hi, %hs, %hInv, HA, HI, HS⟩, Hg⟩, Ho, ⟨%d0, H0⟩, ⟨%d1, H1⟩, ⟨%d2, H2⟩, ⟨%d3, H3⟩, ⟨%d4, H4⟩, ⟨%d5, H5⟩⟩
      iapply ((runReuseFirst c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2 _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HI]; · iexact HI
      isplitl [HS]; · iexact HS
      iintro ⟨H0, H1, H2, H3, H4, H5, HA, HI, HS⟩
      isplitl [HA HI HS Hg]
      · isplitl [HA HI HS]
        · iexists (scA.view.read (Elt F) (scA.view.writes (Elt F) ((Memref.isWhole_whole _).unread a) (runReuseFirst c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).1)), hi, hs
          isplitr; · ipureintro; exact step_reuseFirst (xsV m c) (wiV m c) (wsV m c) (lbsV m c) (ubsV m c) c t (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 a hi hs hInv
          isplitl [HA]
          · unfold owns; iexists _; isplitr
            · ipureintro; rfl
            iexact HA
          isplitl [HI]
          · iexact HI
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have hc2 : ¬cond2 (grid0.coords t) := fun h => h2 ((hcond2 t).mp h)
      by_cases h4 : t.val % 4 = 3
      · have hc3 : ¬cond3 (grid0.coords t) := fun h => by have := (hcond3 t).mp h; omega
        have hc4 : cond4 (grid0.coords t) := (hcond4 t).mpr h4
        rw [show (dats m 0 c).leavesExact 5 t = owns (c : Thread nD τ) (ms5 t) fullShare ((dats m 0 c).after 5 t) from by
            unfold Dat.leavesExact; rw [liveAt5 t hc4], after5]
        iintro ⟨⟨⟨%a, %hi, %hs, %hInv, HA, HI, HS⟩, Hg⟩, Ho, ⟨%d0, H0⟩, ⟨%d1, H1⟩, ⟨%d2, H2⟩, ⟨%d3, H3⟩, ⟨%d4, H4⟩, ⟨%d5, H5⟩⟩
        iapply ((runReuseLast c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HA]; · iexact HA
        isplitl [HI]; · iexact HI
        isplitl [HS]; · iexact HS
        iintro ⟨H0, H1, H2, H3, H4, ⟨%f7, H5⟩, HA, HI, HS⟩
        isplitl [HA HI HS Hg]
        · isplitl [HA HI HS]
          · iexists a, hi, hs
            isplitr; · ipureintro; exact step_reuseLast (xsV m c) (wiV m c) (wsV m c) (lbsV m c) (ubsV m c) c t hc1 hc2 hc3 hc4 a hi hs hInv
            isplitl [HA]
            · iexact HA
            isplitl [HI]
            · iexact HI
            iexact HS
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact out_reuseLast (xsV m c) (wiV m c) (wsV m c) (lbsV m c) (ubsV m c) c t (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 a hi hs hInv _
      · have hc3 : cond3 (grid0.coords t) := (hcond3 t).mpr (by omega)
        have hc4 : ¬cond4 (grid0.coords t) := fun h => h4 ((hcond4 t).mp h)
        rw [Dat.leavesExact_idle (dats m 0 c) 5 t (idleAt5 t hc4) (noFlush5 t hc4)]
        iintro ⟨⟨⟨%a, %hi, %hs, %hInv, HA, HI, HS⟩, Hg⟩, Ho, ⟨%d0, H0⟩, ⟨%d1, H1⟩, ⟨%d2, H2⟩, ⟨%d3, H3⟩, ⟨%d4, H4⟩, ⟨%d5, H5⟩⟩
        iapply ((runReuseMid c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).2 _ Set.univ _)
        isplitl [H0]; · iexact H0
        isplitl [H1]; · iexact H1
        isplitl [H2]; · iexact H2
        isplitl [H3]; · iexact H3
        isplitl [H4]; · iexact H4
        isplitl [H5]; · iexact H5
        isplitl [HA]; · iexact HA
        isplitl [HI]; · iexact HI
        isplitl [HS]; · iexact HS
        iintro ⟨H0, H1, H2, H3, H4, H5, HA, HI, HS⟩
        isplitl [HA HI HS Hg]
        · isplitl [HA HI HS]
          · iexists (scA.view.read (Elt F) (scA.view.writes (Elt F) ((Memref.isWhole_whole _).unread a) (runReuseMid c (grid0.coords t) (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 (xsV m c) (wiV m c) (wsV m c) (lbsV m c t) (ubsV m c t) a hi hs).1)), hi, hs
            isplitr; · ipureintro; exact step_reuseMid (xsV m c) (wiV m c) (wsV m c) (lbsV m c) (ubsV m c) c t (ms0 t) (hs0 t) (ms1 t) (hs1 t) (ms2 t) (hs2 t) (ms3 t) (hs3 t) (ms4 t) (hs4 t) (ms5 t) (hs5 t) scA (Memref.isWhole_whole _) scI (Memref.isWhole_whole _) scS (Memref.isWhole_whole _) hc1 hc2 hc3 hc4 a hi hs hInv
            isplitl [HA]
            · unfold owns; iexists _; isplitr
              · ipureintro; rfl
              iexact HA
            isplitl [HI]
            · iexact HI
            iexact HS
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: the scratch at anything. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%a, HA⟩, ⟨%hi, HI⟩, ⟨%hs, HS⟩⟩, Hg⟩
  isplitl [HA HI HS]
  · iexists a, hi, hs
    isplitr; · ipureintro; exact Inv_zero _ _ _ _ _ a hi hs
    isplitl [HA]; · iexact HA
    isplitl [HI]; · iexact HI
    iexact HS
  iexact Hg

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%a, %hi, %hs, -, HA, HI, HS⟩, Hg⟩
  isplitl [HA HI HS]
  · isplitl [HA]; · iexists _; iexact HA
    isplitl [HI]; · iexists _; iexact HI
    iexists _; iexact HS
  iexact Hg

set_option backward.isDefEq.respectTransparency.types false in
/-- Every weakly fair execution of the program terminates, nothing faulting, with every array of the pipeline at what
    the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.PayloadAt.lean ====
/-
  The body's arithmetic at the ideal instance, read at one entry (p, q) of a 1024 × 128 block:
    a projection chunk  = Σ_d x-chunk (p, d) · w (d, q),
    a partial product   = Σ_j L-block (p, j) · P_irr-chunk (j, q) + Σ_j U-block (p, j) · P_sol-chunk (j, q),
    the accumulator     = what it held + the partial product (started from the zero fill),
    the result block    = max (accumulator + partial product, 0).
  Each matrix unit product into a zero accumulator is the plain sum over the contracted coordinate.
-/
import proofs.«105109_g26044681683717_cont_sun_m_400_16_alg».proof.Proof.Body
import proofs.«105109_g26044681683717_cont_sun_m_400_16_alg».proof.Proof.LibMatmulAt
import Idealize.ShloMosaic.Lib.Pipeline.Value
import Idealize.ShloMosaic.PureOps.Ideal.Laws

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Cert.KernelIdeal Cert.KernelIdeal.Gen Cert.KernelIdeal.Hand

local notation "D1" => dot_S1024x128_S128x128_S1024x128_1_0_0_1_n_n
local notation "D2" => dot_S1024x1024_S1024x128_S1024x128_1_0_0_1_n_n

theorem d1_l0 (i : S1024x128.Idx) (q : (dot_S1024x128_S128x128_S1024x128_1_0_0_1_n_n).contr.Idx) :
    ((dot_S1024x128_S128x128_S1024x128_1_0_0_1_n_n).lhsIdx i q 0).val = (i 0).val := by
  unfold DotDims.lhsIdx
  rw [dif_neg (show ¬(0 : Fin S1024x128.rank) ∈ (dot_S1024x128_S128x128_S1024x128_1_0_0_1_n_n).lhsBatch by decide),
    dif_pos (show (0 : Fin S1024x128.rank) ∈ (dot_S1024x128_S128x128_S1024x128_1_0_0_1_n_n).lhsNonContracting by decide)]
  rfl
theorem d1_l1 (i : S1024x128.Idx) (q : (dot_S1024x128_S128x128_S1024x128_1_0_0_1_n_n).contr.Idx) :
    ((dot_S1024x128_S128x128_S1024x128_1_0_0_1_n_n).lhsIdx i q 1).val = (q ⟨0, by decide⟩).val :=
  (dot_S1024x128_S128x128_S1024x128_1_0_0_1_n_n).lhsIdx_val_of_single rfl i q
theorem d1_r0 (i : S1024x128.Idx) (q : (dot_S1024x128_S128x128_S1024x128_1_0_0_1_n_n).contr.Idx) :
    ((dot_S1024x128_S128x128_S1024x128_1_0_0_1_n_n).rhsIdx i q 0).val = (q ⟨0, by decide⟩).val :=
  (dot_S1024x128_S128x128_S1024x128_1_0_0_1_n_n).rhsIdx_val_of_single rfl i q
theorem d1_r1 (i : S1024x128.Idx) (q : (dot_S1024x128_S128x128_S1024x128_1_0_0_1_n_n).contr.Idx) :
    ((dot_S1024x128_S128x128_S1024x128_1_0_0_1_n_n).rhsIdx i q 1).val = (i 1).val := by
  unfold DotDims.rhsIdx
  rw [dif_neg (show ¬(1 : Fin S128x128.rank) ∈ (dot_S1024x128_S128x128_S1024x128_1_0_0_1_n_n).rhsBatch by decide),
    dif_pos (show (1 : Fin S128x128.rank) ∈ (dot_S1024x128_S128x128_S1024x128_1_0_0_1_n_n).rhsNonContracting by decide)]
  rfl

theorem d2_l0 (i : S1024x128.Idx) (q : (dot_S1024x1024_S1024x128_S1024x128_1_0_0_1_n_n).contr.Idx) :
    ((dot_S1024x1024_S1024x128_S1024x128_1_0_0_1_n_n).lhsIdx i q 0).val = (i 0).val := by
  unfold DotDims.lhsIdx
  rw [dif_neg (show ¬(0 : Fin S1024x1024.rank) ∈ (dot_S1024x1024_S1024x128_S1024x128_1_0_0_1_n_n).lhsBatch by decide),
    dif_pos (show (0 : Fin S1024x1024.rank) ∈ (dot_S1024x1024_S1024x128_S1024x128_1_0_0_1_n_n).lhsNonContracting by decide)]
  rfl
theorem d2_l1 (i : S1024x128.Idx) (q : (dot_S1024x1024_S1024x128_S1024x128_1_0_0_1_n_n).contr.Idx) :
    ((dot_S1024x1024_S1024x128_S1024x128_1_0_0_1_n_n).lhsIdx i q 1).val = (q ⟨0, by decide⟩).val :=
  (dot_S1024x1024_S1024x128_S1024x128_1_0_0_1_n_n).lhsIdx_val_of_single rfl i q
theorem d2_r0 (i : S1024x128.Idx) (q : (dot_S1024x1024_S1024x128_S1024x128_1_0_0_1_n_n).contr.Idx) :
    ((dot_S1024x1024_S1024x128_S1024x128_1_0_0_1_n_n).rhsIdx i q 0).val = (q ⟨0, by decide⟩).val :=
  (dot_S1024x1024_S1024x128_S1024x128_1_0_0_1_n_n).rhsIdx_val_of_single rfl i q
theorem d2_r1 (i : S1024x128.Idx) (q : (dot_S1024x1024_S1024x128_S1024x128_1_0_0_1_n_n).contr.Idx) :
    ((dot_S1024x1024_S1024x128_S1024x128_1_0_0_1_n_n).rhsIdx i q 1).val = (i 1).val := by
  unfold DotDims.rhsIdx
  rw [dif_neg (show ¬(1 : Fin S1024x128.rank) ∈ (dot_S1024x1024_S1024x128_S1024x128_1_0_0_1_n_n).rhsBatch by decide),
    dif_pos (show (1 : Fin S1024x128.rank) ∈ (dot_S1024x1024_S1024x128_S1024x128_1_0_0_1_n_n).rhsNonContracting by decide)]
  rfl

/-- A chunk of the first projection at (p, q). -/
theorem pay1_at (v25 : Vec Ideal S1024x128 .f32) (v26 : Vec Ideal S128x128 .f32) (p : Fin 1024) (q : Fin 128) :
    k0_pay1 (F := Ideal) v25 v26 (ix2 p q) = ∑ d : Fin 128, v25 (ix2 p d) * v26 (ix2 d q) := by
  unfold k0_pay1
  simp only [shapeCast_self]
  exact MatmulAt.matmul_zero_ix2 (dot_S1024x128_S128x128_S1024x128_1_0_0_1_n_n) rfl rfl d1_l0 d1_l1 d1_r0 d1_r1 none v25 v26 p q

/-- A chunk of the second projection at (p, q). -/
theorem pay2_at (v25 : Vec Ideal S1024x128 .f32) (v33 : Vec Ideal S128x128 .f32) (p : Fin 1024) (q : Fin 128) :
    k0_pay2 (F := Ideal) v25 v33 (ix2 p q) = ∑ d : Fin 128, v25 (ix2 p d) * v33 (ix2 d q) := by
  unfold k0_pay2
  simp only [shapeCast_self]
  exact MatmulAt.matmul_zero_ix2 (dot_S1024x128_S128x128_S1024x128_1_0_0_1_n_n) rfl rfl d1_l0 d1_l1 d1_r0 d1_r1 none v25 v33 p q

/-- The zero fill at any entry. -/
theorem pay3_at (i : S1024x128.Idx) : k0_pay3 (F := Ideal) i = 0 := by
  unfold k0_pay3
  simp only [shapeCast_self]
  show Ideal.ofBits .f32 0x00000000#32 = 0
  exact Ideal.ofBits_zero_f32

/-- A chunk's partial product at (p, q). -/
theorem pay4_at (v8 v11 : Vec Ideal S1024x128 .f32) (v12 v14 : Vec Ideal S1024x1024 .f32) (p : Fin 1024) (q : Fin 128) :
    k0_pay4 (F := Ideal) v8 v11 v12 v14 (ix2 p q)
      = (∑ j : Fin 1024, v12 (ix2 p j) * v8 (ix2 j q)) + (∑ j : Fin 1024, v14 (ix2 p j) * v11 (ix2 j q)) := by
  unfold k0_pay4
  show matmul (F := Ideal) (dot_S1024x1024_S1024x128_S1024x128_1_0_0_1_n_n) none v12 v8 (constant S1024x128 .f32 0x00000000#32) (ix2 p q)
      + matmul (F := Ideal) (dot_S1024x1024_S1024x128_S1024x128_1_0_0_1_n_n) none v14 v11 (constant S1024x128 .f32 0x00000000#32) (ix2 p q) = _
  rw [MatmulAt.matmul_zero_ix2 (dot_S1024x1024_S1024x128_S1024x128_1_0_0_1_n_n) rfl rfl d2_l0 d2_l1 d2_r0 d2_r1 none v12 v8 p q,
    MatmulAt.matmul_zero_ix2 (dot_S1024x1024_S1024x128_S1024x128_1_0_0_1_n_n) rfl rfl d2_l0 d2_l1 d2_r0 d2_r1 none v14 v11 p q]

/-- The accumulator after an adding point, at an entry. -/
theorem pay5_at (v8 v11 : Vec Ideal S1024x128 .f32) (v12 v14 : Vec Ideal S1024x1024 .f32) (v23 : Vec Ideal S1024x128 .f32) (i : S1024x128.Idx) :
    k0_pay5 (F := Ideal) v8 v11 v12 v14 v23 i = v23 i + k0_pay4 (F := Ideal) v8 v11 v12 v14 i := by
  unfold k0_pay5
  simp only [shapeCast_self]
  rfl

/-- The result block at an entry. -/
theorem pay6_at (v8 v11 : Vec Ideal S1024x128 .f32) (v12 v14 : Vec Ideal S1024x1024 .f32) (v23 : Vec Ideal S1024x128 .f32) (i : S1024x128.Idx) :
    k0_pay6 (F := Ideal) v8 v11 v12 v14 v23 i = max (v23 i + k0_pay4 (F := Ideal) v8 v11 v12 v14 i) 0 := by
  unfold k0_pay6
  show max (v23 i + k0_pay4 (F := Ideal) v8 v11 v12 v14 i) (Ideal.ofBits .f32 0x00000000#32) = _
  rw [Ideal.ofBits_zero_f32]

/-- A chunk of a 4096-row array at (j, d): the array at row 1024·k + j. -/
theorem chunk_at (k : ℕ) (hk : k < 4) (h : Vec Ideal S4096x128 .f32) (j : Fin 1024) (d : Fin 128) :
    chunk k hk h (ix2 j d) = h (ix2 ⟨1024 * k + j.val, by omega⟩ d) := by
  unfold chunk
  show h ((rowsRect k hk).toLoadRect.idx (ix2 j d)) = _
  refine congrArg h (funext fun a => Fin.ext ?_)
  match a with
  | ⟨0, _⟩ => show 1024 * k + 1 * j.val = 1024 * k + j.val; omega
  | ⟨1, _⟩ => show 0 + 1 * d.val = d.val; omega

end Cert.KernelIdeal.HandValue

end
-- ==== Proof.BlockAt.lean ====
/-
  Where each window's block sits in its array: at point t = 4·i + k the two neighbourhood blocks are rows
  [1024·i, +1024) and columns [1024·k, +1024) of their matrices, the result block rows [1024·i, +1024) of the result,
  and x and the two weights are read whole. So a block read at (p, j) is the array read at the shifted row and column.
-/
import proofs.«105109_g26044681683717_cont_sun_m_400_16_alg».proof.Proof.PayloadAt

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ)

theorem lt16 (t : Fin cfg0.N) : t.val < 16 := lt_of_lt_of_eq t.isLt (show cfg0.N = 16 from N_0)

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)
theorem idx4 : ∀ t : Fin cfg0.N, win0_4.index t 0 = t.val / 4 ∧ win0_4.index t 1 = t.val % 4 :=
  (by decide +kernel : ∀ t : Fin grid0.N, win0_4.index t 0 = t.val / 4 ∧ win0_4.index t 1 = t.val % 4)
theorem idx5 : ∀ t : Fin cfg0.N, win0_5.index t 0 = t.val / 4 ∧ win0_5.index t 1 = 0 :=
  (by decide +kernel : ∀ t : Fin grid0.N, win0_5.index t 0 = t.val / 4 ∧ win0_5.index t 1 = 0)

/-- The argument arrays as the region finds them, as index functions: x, L, U, W_irr, W_sol. -/
def Xa (c : Dev nD) : (⟨2, ![4096, 128]⟩ : Shape).Idx → EReal := V m c main_arg0
def La (c : Dev nD) : (⟨2, ![4096, 4096]⟩ : Shape).Idx → EReal := V m c main_arg1
def Ua (c : Dev nD) : (⟨2, ![4096, 4096]⟩ : Shape).Idx → EReal := V m c main_arg2
def Wia (c : Dev nD) : (⟨2, ![128, 128]⟩ : Shape).Idx → EReal := V m c main_arg3
def Wsa (c : Dev nD) : (⟨2, ![128, 128]⟩ : Shape).Idx → EReal := V m c main_arg4

theorem xs_at (c : Dev nD) (J : Fin 4096) (d : Fin 128) : xsV m c (ix2 J d) = Xa m c (ix2 J d) := by
  show V m c main_arg0 (((cfg0.win 0).blk ⟨0, N_pos⟩).view.emb (ix2 J d)) = V m c main_arg0 (ix2 J d)
  refine congrArg _ (funext fun a => Fin.ext ?_)
  match a with
  | ⟨0, _⟩ => show win0_0.index ⟨0, N_pos⟩ 0 * 4096 + 1 * J.val = J.val; rw [(idx0 _).1]; omega
  | ⟨1, _⟩ => show win0_0.index ⟨0, N_pos⟩ 1 * 128 + 1 * d.val = d.val; rw [(idx0 _).2]; omega

theorem wi_at (c : Dev nD) (d : Fin 128) (q : Fin 128) : wiV m c (ix2 d q) = Wia m c (ix2 d q) := by
  show V m c main_arg3 (((cfg0.win 1).blk ⟨0, N_pos⟩).view.emb (ix2 d q)) = V m c main_arg3 (ix2 d q)
  refine congrArg _ (funext fun a => Fin.ext ?_)
  match a with
  | ⟨0, _⟩ => show win0_1.index ⟨0, N_pos⟩ 0 * 128 + 1 * d.val = d.val; rw [(idx1 _).1]; omega
  | ⟨1, _⟩ => show win0_1.index ⟨0, N_pos⟩ 1 * 128 + 1 * q.val = q.val; rw [(idx1 _).2]; omega

theorem ws_at (c : Dev nD) (d : Fin 128) (q : Fin 128) : wsV m c (ix2 d q) = Wsa m c (ix2 d q) := by
  show V m c main_arg4 (((cfg0.win 2).blk ⟨0, N_pos⟩).view.emb (ix2 d q)) = V m c main_arg4 (ix2 d q)
  refine congrArg _ (funext fun a => Fin.ext ?_)
  match a with
  | ⟨0, _⟩ => show win0_2.index ⟨0, N_pos⟩ 0 * 128 + 1 * d.val = d.val; rw [(idx2 _).1]; omega
  | ⟨1, _⟩ => show win0_2.index ⟨0, N_pos⟩ 1 * 128 + 1 * q.val = q.val; rw [(idx2 _).2]; omega

theorem lbs_at (c : Dev nD) (t : Fin cfg0.N) (p j : Fin 1024) :
    lbsV m c t (ix2 p j) = La m c (ix2 ⟨1024 * (t.val / 4) + p.val, by have := lt16 t; omega⟩ ⟨1024 * (t.val % 4) + j.val, by have := lt16 t; omega⟩) := by
  show V m c main_arg1 (((cfg0.win 3).blk t).view.emb (ix2 p j)) = V m c main_arg1 _
  refine congrArg _ (funext fun a => Fin.ext ?_)
  match a with
  | ⟨0, _⟩ => show win0_3.index t 0 * 1024 + 1 * p.val = 1024 * (t.val / 4) + p.val; rw [(idx3 t).1]; omega
  | ⟨1, _⟩ => show win0_3.index t 1 * 1024 + 1 * j.val = 1024 * (t.val % 4) + j.val; rw [(idx3 t).2]; omega

theorem ubs_at (c : Dev nD) (t : Fin cfg0.N) (p j : Fin 1024) :
    ubsV m c t (ix2 p j) = Ua m c (ix2 ⟨1024 * (t.val / 4) + p.val, by have := lt16 t; omega⟩ ⟨1024 * (t.val % 4) + j.val, by have := lt16 t; omega⟩) := by
  show V m c main_arg2 (((cfg0.win 4).blk t).view.emb (ix2 p j)) = V m c main_arg2 _
  refine congrArg _ (funext fun a => Fin.ext ?_)
  match a with
  | ⟨0, _⟩ => show win0_4.index t 0 * 1024 + 1 * p.val = 1024 * (t.val / 4) + p.val; rw [(idx4 t).1]; omega
  | ⟨1, _⟩ => show win0_4.index t 1 * 1024 + 1 * j.val = 1024 * (t.val % 4) + j.val; rw [(idx4 t).2]; omega

/-- The result window's block at point t, read off any whole-array function at (p, q): the function at row 1024·i + p. -/
theorem out_blk_at (c : Dev nD) (t : Fin cfg0.N) (Gf : Buf (Elt Ideal) ((cfg0.win 5).arr.view.loc (c.tc : Thread nD τ))) (p : Fin 1024) (q : Fin 128) :
    ((cfg0.win 5).blk t).view.read (Elt Ideal) Gf (ix2 p q)
      = (Gf : (⟨2, ![4096, 128]⟩ : Shape).Idx → EReal) (ix2 ⟨1024 * (t.val / 4) + p.val, by have := lt16 t; omega⟩ q) := by
  show Gf (((cfg0.win 5).blk t).view.emb (ix2 p q)) = _
  refine congrArg _ (funext fun a => Fin.ext ?_)
  match a with
  | ⟨0, _⟩ => show win0_5.index t 0 * 1024 + 1 * p.val = 1024 * (t.val / 4) + p.val; rw [(idx5 t).1]; omega
  | ⟨1, _⟩ => show win0_5.index t 1 * 128 + 1 * q.val = q.val; rw [(idx5 t).2]; omega

end Cert.KernelIdeal.HandValue

end
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.Spec.lean ====
/-
  The layer as one function of its argument arrays, on the extended reals, index by index:
      G (r, q) = max ( Σ_J L (r, J) · P_irr (J, q)  +  Σ_J U (r, J) · P_sol (J, q) , 0 ),
      P_w (J, q) = Σ_d x (J, d) · w (d, q)            (J < 4096, d < 128),
  and the one law the kernel's arrangement needs: an accumulator started at zero and advanced four times by the
  sum of a chunk of 1024 terms of the first product plus the same chunk of the second ends at the first product's
  full sum plus the second's. Addition on the extended reals is a commutative monoid; nothing else is used, so
  the law holds at the infinities too and no finiteness of the inputs enters.
-/
import proofs.«105109_g26044681683717_cont_sun_m_400_16_alg».proof.Proof.LibSumChunks
import Idealize.ShloMosaic.Lib.ValueIdx
import Mathlib.Data.EReal.Basic
import Mathlib.Tactic.Abel

noncomputable section

open scoped BigOperators

namespace Cert.Spec

open Idealize.ShloMosaic Idealize.ShloMosaic.ValueIdx

/-- Entry (J, q) of a projection x · w. -/
def proj (x : (⟨2, ![4096, 128]⟩ : Shape).Idx → EReal) (w : (⟨2, ![128, 128]⟩ : Shape).Idx → EReal) (J : Fin 4096) (q : Fin 128) : EReal :=
  ∑ d : Fin 128, x (ix2 J d) * w (ix2 d q)

/-- The layer's result at (r, q). -/
def G (x : (⟨2, ![4096, 128]⟩ : Shape).Idx → EReal) (L U : (⟨2, ![4096, 4096]⟩ : Shape).Idx → EReal)
    (wi ws : (⟨2, ![128, 128]⟩ : Shape).Idx → EReal) : (⟨2, ![4096, 128]⟩ : Shape).Idx → EReal :=
  fun i => max (∑ J : Fin 4096, L (ix2 (i 0) J) * proj x wi J (i 1) + ∑ J : Fin 4096, U (ix2 (i 0) J) * proj x ws J (i 1)) 0

/-- Position j of chunk k of the 4096 contraction indices. -/
def pos (k : Fin 4) (j : Fin 1024) : Fin 4096 := ⟨1024 * k.val + j.val, by have := k.isLt; have := j.isLt; omega⟩

/-- The sum of chunk k's 1024 terms. -/
def chunkSum (f : Fin 4096 → EReal) (k : Fin 4) : EReal := ∑ j : Fin 1024, f (pos k j)

theorem sum_eq_chunks (f : Fin 4096 → EReal) : ∑ J : Fin 4096, f J = chunkSum f 0 + chunkSum f 1 + chunkSum f 2 + chunkSum f 3 := by
  rw [Cert.Lib.SumChunks.sum_chunks 4 1024 rfl f, Fin.sum_univ_four]
  have e : ∀ c : Fin 4, (∑ j : Fin 1024, f ⟨j.val + 1024 * c.val, Cert.Lib.SumChunks.chunk_lt c j⟩) = chunkSum f c := fun c =>
    Finset.sum_congr rfl fun j _ => congrArg f (Fin.ext (by show j.val + 1024 * c.val = 1024 * c.val + j.val; omega))
  exact congrArg₂ (· + ·) (congrArg₂ (· + ·) (congrArg₂ (· + ·) (e 0) (e 1)) (e 2)) (e 3)

/-- Zero, advanced by each chunk's two sums in turn, is the two full sums. -/
theorem acc4 (f g : Fin 4096 → EReal) :
    (((0 + (chunkSum f 0 + chunkSum g 0)) + (chunkSum f 1 + chunkSum g 1)) + (chunkSum f 2 + chunkSum g 2)) + (chunkSum f 3 + chunkSum g 3)
      = ∑ J : Fin 4096, f J + ∑ J : Fin 4096, g J := by
  rw [sum_eq_chunks f, sum_eq_chunks g]
  abel

end Cert.Spec

end
-- ==== Proof.KernelValue.lean ====
/-
  The kernel's result array is the layer's function G of the argument arrays.
  At a point t = 4·i + 3 the result block at (p, q) is
      max ( (((0 + S₀) + S₁) + S₂) + S₃ , 0 ),   S_k = Σ_j L (r, 1024·k + j) · P_irr (1024·k + j, q) + the same with U, P_sol,
  r = 1024·i + p: S_k is chunk k's sum of the first product's terms plus chunk k's sum of the second's, so by the
  accumulation law the block is G at (r, q). The four result blocks (i = 0 … 3) cover the 4096 rows.
-/
import proofs.«105109_g26044681683717_cont_sun_m_400_16_alg».proof.Proof.BlockAt
import proofs.«105109_g26044681683717_cont_sun_m_400_16_alg».proof.Proof.Spec
import Idealize.ShloMosaic.Lib.Pipeline.Value

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ) (ρ : Dev nD → PrngReg)

/-- The first product's terms along the contraction axis, for result entry (r, q), and the second's. -/
def fI (c : Dev nD) (r : Fin 4096) (q : Fin 128) : Fin 4096 → EReal := fun J => La m c (ix2 r J) * Cert.Spec.proj (Xa m c) (Wia m c) J q
def gS (c : Dev nD) (r : Fin 4096) (q : Fin 128) : Fin 4096 → EReal := fun J => Ua m c (ix2 r J) * Cert.Spec.proj (Xa m c) (Wsa m c) J q

theorem projI_at (c : Dev nD) (k : ℕ) (hk : k < 4) (j : Fin 1024) (q : Fin 128) :
    projI (xsV m c) (wiV m c) k hk (ix2 j q) = Cert.Spec.proj (Xa m c) (Wia m c) ⟨1024 * k + j.val, by omega⟩ q := by
  unfold projI
  rw [pay1_at]
  unfold Cert.Spec.proj
  refine Finset.sum_congr rfl fun d _ => ?_
  rw [chunk_at, xs_at, wi_at]

theorem projS_at (c : Dev nD) (k : ℕ) (hk : k < 4) (j : Fin 1024) (q : Fin 128) :
    projS (xsV m c) (wsV m c) k hk (ix2 j q) = Cert.Spec.proj (Xa m c) (Wsa m c) ⟨1024 * k + j.val, by omega⟩ q := by
  unfold projS
  rw [pay2_at]
  unfold Cert.Spec.proj
  refine Finset.sum_congr rfl fun d _ => ?_
  rw [chunk_at, xs_at, ws_at]

/-- A point's partial product at (p, q): chunk k's sums of the two products' terms for row 1024·i + p. -/
theorem part_at (c : Dev nD) (t' : Fin cfg0.N) (i : ℕ) (k : Fin 4) (hi : t'.val / 4 = i) (hk : t'.val % 4 = k.val)
    (p : Fin 1024) (q : Fin 128) (hr : 1024 * i + p.val < 4096) :
    k0_pay4 (F := Ideal) (projI (xsV m c) (wiV m c) (t'.val % 4) (mod4 _)) (projS (xsV m c) (wsV m c) (t'.val % 4) (mod4 _))
        (lbsV m c t') (ubsV m c t') (ix2 p q)
      = Cert.Spec.chunkSum (fI m c ⟨1024 * i + p.val, hr⟩ q) k + Cert.Spec.chunkSum (gS m c ⟨1024 * i + p.val, hr⟩ q) k := by
  subst hi
  obtain rfl : k = ⟨t'.val % 4, mod4 _⟩ := Fin.ext hk.symm
  rw [pay4_at]
  unfold Cert.Spec.chunkSum
  refine congrArg₂ (· + ·) (Finset.sum_congr rfl fun j _ => ?_) (Finset.sum_congr rfl fun j _ => ?_)
  · rw [lbs_at, projI_at]; rfl
  · rw [ubs_at, projS_at]; rfl

/-- The result block of a last-chunk point is G's block. -/
theorem out_at (c : Dev nD) (t : Fin cfg0.N) (h3 : t.val % 4 = 3) (p : Fin 1024) (q : Fin 128) :
    outV m c t (ix2 p q)
      = Cert.Spec.G (Xa m c) (La m c) (Ua m c) (Wia m c) (Wsa m c) (ix2 ⟨1024 * (t.val / 4) + p.val, by have := lt16 t; omega⟩ q) := by
  have hN := lt16 t
  have hr : 1024 * (t.val / 4) + p.val < 4096 := by omega
  unfold outV outAt
  rw [pay6_at,
    accAt_next _ _ _ _ _ (t.val - 1) _ (by omega), pay5_at,
    accAt_next _ _ _ _ _ (t.val - 1 - 1) _ (by omega), pay5_at,
    accAt_first _ _ _ _ _ (t.val - 1 - 1 - 1) _ (by omega), pay5_at, pay3_at]
  rw [part_at m c ⟨t.val, t.isLt⟩ (t.val / 4) 3 rfl h3 p q hr,
    part_at m c ⟨t.val - 1, _⟩ (t.val / 4) 2 (by show (t.val - 1) / 4 = t.val / 4; omega) (by show (t.val - 1) % 4 = 2; omega) p q hr,
    part_at m c ⟨t.val - 1 - 1, _⟩ (t.val / 4) 1 (by show (t.val - 1 - 1) / 4 = t.val / 4; omega) (by show (t.val - 1 - 1) % 4 = 1; omega) p q hr,
    part_at m c ⟨t.val - 1 - 1 - 1, _⟩ (t.val / 4) 0 (by show (t.val - 1 - 1 - 1) / 4 = t.val / 4; omega) (by show (t.val - 1 - 1 - 1) % 4 = 0; omega) p q hr]
  rw [Cert.Spec.acc4]
  rfl

/-- G of the argument arrays as the region finds them, as the result array's contents. -/
def Gfin (c : Dev nD) : Buf (Elt Ideal) ((cfg0.win 5).arr.view.loc (c.tc : Thread nD τ)) :=
  Cert.Spec.G (Xa m c) (La m c) (Ua m c) (Wia m c) (Wsa m c)

/-- What a last-chunk point writes back is its block of G. -/
theorem flushed_eq (c : Dev nD) (t : Fin cfg0.N) (hf : (cfg0.win 5).flush t = true) :
    (dats m 0 c).flushed 5 t = ((cfg0.win 5).blk t).view.read (Elt Ideal) (Gfin m c) := by
  have h3 := (flush0_5 t).mp hf
  show (cfg0.win 5).cut (grid0.coords t) ((dats m 0 c).after 5 t) = _
  rw [after5]
  funext y
  obtain ⟨p, q, rfl⟩ : ∃ (p : Fin 1024) (q : Fin 128), y = ix2 p q := ⟨y 0, y 1, eq_ix2 y⟩
  rw [out_blk_at]
  exact out_at m c t h3 p q

/-- An index of the result array is in point t's block iff each coordinate is in the block's range on its axis. -/
theorem mem_blk5 (t : Fin cfg0.N) (i : S4096x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v0).slice (win0_5.rect t)).set ↔ _
  rw [View.set_slice_whole, Rect.mem_set_unit]
  exact Iff.rfl

/-- Every row of the result lies in the block of the last-chunk point of its block row. -/
theorem cover5 (i : S4096x128.Idx) : ∃ t : Fin cfg0.N, (cfg0.win 5).flush t = true ∧ i ∈ ((cfg0.win 5).blk t).view.set := by
  have hi0 : (i 0).val < 4096 := (i 0).isLt
  have hi1 : (i 1).val < 128 := (i 1).isLt
  have hN : cfg0.N = 16 := N_0
  refine ⟨⟨4 * ((i 0).val / 1024) + 3, by omega⟩, (flush0_5 _).mpr (by show (4 * ((i 0).val / 1024) + 3) % 4 = 3; omega), ?_⟩
  rw [mem_blk5]
  obtain ⟨e0, e1⟩ := idx5 ⟨4 * ((i 0).val / 1024) + 3, by omega⟩
  intro a
  match a with
  | ⟨0, _⟩ =>
    show win0_5.index _ (0 : Fin 2) * 1024 ≤ (i 0).val ∧ (i 0).val < win0_5.index _ (0 : Fin 2) * 1024 + 1024
    rw [e0]; show (4 * ((i 0).val / 1024) + 3) / 4 * 1024 ≤ (i 0).val ∧ (i 0).val < (4 * ((i 0).val / 1024) + 3) / 4 * 1024 + 1024
    omega
  | ⟨1, _⟩ =>
    show win0_5.index _ (1 : Fin 2) * 128 ≤ (i 1).val ∧ (i 1).val < win0_5.index _ (1 : Fin 2) * 128 + 128
    rw [e1]; omega

/-- The result array after the run is G of the argument arrays as the region finds them. -/
theorem final5 (c : Dev nD) : (dats m 0 c).arrAt 5 cfg0.N = Gfin m c :=
  (dats m 0 c).arrAt_eq_of_cover 5 (Gfin m c) (fun t hf => flushed_eq m c t hf) (cover5)

/-- Every weakly fair execution terminates with the result array at G of the launch arguments and the arguments unchanged. -/
theorem run : θ_run defs (onTc (τ := τ) (main (F := Ideal))) ⟨m, fun _ => 0, ρ⟩ fun r => ∀ c : Dev nD,
      r.2.mem ((c.tc : Thread nD τ).loc main_v0)
        = Cert.Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(((h c).1 5).trans (final5 m c)).trans rfl,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩)
    (run_main m ρ)

end Cert.KernelIdeal.HandValue

end
-- ==== Proof.RefValue.lean ====
/-
  The reference's last stage, read index by index at the ideal instance, is the layer's function G of the argument
  arrays: the two host matrix products nested as sums (the inner one a projection's entry), the sum of the two
  outer products, and the maximum with the zero constant.
-/
import proofs.«105109_g26044681683717_cont_sun_m_400_16_alg».proof.Proof.Gen.ReferenceIdeal.Read
import proofs.«105109_g26044681683717_cont_sun_m_400_16_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The first projection's entry. -/
theorem v0_at (x0 : (⟨S4096x128, .f32⟩ : BufTy).Contents (Elt Ideal)) (x3 : (⟨S128x128, .f32⟩ : BufTy).Contents (Elt Ideal)) (J : Fin 4096) (q : Fin 128) :
    val_main_v0 (F := Ideal) x0 x3 (ix2 J q) = Cert.Spec.proj x0 x3 J q := by
  rw [val_main_v0_apply]
  unfold Cert.Spec.proj
  refine Finset.sum_congr rfl fun d _ => ?_
  have e1 : lidx_main_v0 (ix2 J q) d = ix2 J d := funext fun a => Fin.ext (by match a with | ⟨0, _⟩ => rfl | ⟨1, _⟩ => rfl)
  have e2 : ridx_main_v0 (ix2 J q) d = ix2 d q := funext fun a => Fin.ext (by match a with | ⟨0, _⟩ => rfl | ⟨1, _⟩ => rfl)
  rw [e1, e2]

/-- The second projection's entry. -/
theorem v2_at (x0 : (⟨S4096x128, .f32⟩ : BufTy).Contents (Elt Ideal)) (x4 : (⟨S128x128, .f32⟩ : BufTy).Contents (Elt Ideal)) (J : Fin 4096) (q : Fin 128) :
    val_main_v2 (F := Ideal) x0 x4 (ix2 J q) = Cert.Spec.proj x0 x4 J q := by
  rw [val_main_v2_apply]
  unfold Cert.Spec.proj
  refine Finset.sum_congr rfl fun d _ => ?_
  have e1 : lidx_main_v2 (ix2 J q) d = ix2 J d := funext fun a => Fin.ext (by match a with | ⟨0, _⟩ => rfl | ⟨1, _⟩ => rfl)
  have e2 : ridx_main_v2 (ix2 J q) d = ix2 d q := funext fun a => Fin.ext (by match a with | ⟨0, _⟩ => rfl | ⟨1, _⟩ => rfl)
  rw [e1, e2]

/-- The reference's result is G of its arguments. -/
theorem ref_eq_G (x0 : (⟨S4096x128, .f32⟩ : BufTy).Contents (Elt Ideal)) (x1 x2 : (⟨S4096x4096, .f32⟩ : BufTy).Contents (Elt Ideal))
    (x3 x4 : (⟨S128x128, .f32⟩ : BufTy).Contents (Elt Ideal)) :
    val_main_v5 (F := Ideal) x0 x1 x2 x3 x4 = Cert.Spec.G x0 x1 x2 x3 x4 := by
  funext i
  rw [val_main_v5_apply, val_main_v4_apply, val_main_v1_apply, val_main_v3_apply, val_main_call0_v0_apply, val_main_call0_cst_apply]
  have eL1 : ∀ k, lidx_main_v1 i k = ix2 (i 0) k := fun k => funext fun a => Fin.ext (by match a with | ⟨0, _⟩ => rfl | ⟨1, _⟩ => rfl)
  have eR1 : ∀ k, ridx_main_v1 i k = ix2 k (i 1) := fun k => funext fun a => Fin.ext (by match a with | ⟨0, _⟩ => rfl | ⟨1, _⟩ => rfl)
  have eL3 : ∀ k, lidx_main_v3 i k = ix2 (i 0) k := fun k => funext fun a => Fin.ext (by match a with | ⟨0, _⟩ => rfl | ⟨1, _⟩ => rfl)
  have eR3 : ∀ k, ridx_main_v3 i k = ix2 k (i 1) := fun k => funext fun a => Fin.ext (by match a with | ⟨0, _⟩ => rfl | ⟨1, _⟩ => rfl)
  simp only [eL1, eR1, eL3, eR3, Ideal.maximumf_def, Ideal.addf_def, Ideal.ofBits_def, Ideal.ofBits_zero_f32]
  unfold Cert.Spec.G
  refine congrArg (fun s => max s 0) ?_
  refine congrArg₂ (· + ·) (Finset.sum_congr rfl fun J _ => ?_) (Finset.sum_congr rfl fun J _ => ?_)
  · exact congrArg (fun z => x1 (ix2 (i 0) J) * z) (v0_at x0 x3 J (i 1))
  · exact congrArg (fun z => x2 (ix2 (i 0) J) * z) (v2_at x0 x4 J (i 1))

end Cert.ReferenceIdeal.RefValue

end
-- ==== Proof.lean ====
/-
  The layer out = relu (L · (x · W_irr) + U · (x · W_sol)) on 4096 nodes and 128 features.
  The kernel walks a 4 × 4 grid: point (i, k) takes block row i of L and U (1024 rows) and chunk k of the contraction
  axis (1024 indices); during block row 0 it also computes and keeps chunk k of the two projections x · W; it keeps a
  running sum of the chunks' partial products and writes max (sum, 0) at the last chunk. The reference computes the two
  projections, the two products, their sum and the maximum whole.
  Both are the same function of the arguments on the extended reals: the kernel's running sum regroups the two full
  sums over the contraction axis into four chunks, and addition there is a commutative monoid — no finiteness is used.
  The frames: each kernel program by the body's run at every point under an invariant that tracks what the three
  scratch buffers hold; the reference by its run read back. Nothing was rewritten by the ideal pass.
-/
import proofs.«105109_g26044681683717_cont_sun_m_400_16_alg».proof.Defs
import proofs.«105109_g26044681683717_cont_sun_m_400_16_alg».proof.Proof.Gen.Kernel
import proofs.«105109_g26044681683717_cont_sun_m_400_16_alg».proof.Proof.Gen.KernelIdeal
import proofs.«105109_g26044681683717_cont_sun_m_400_16_alg».proof.Proof.Gen.ReferenceIdeal
import proofs.«105109_g26044681683717_cont_sun_m_400_16_alg».proof.Proof.Gen.Pre_finite_inputs
import proofs.«105109_g26044681683717_cont_sun_m_400_16_alg».proof.Proof.Gen.ReferenceIdeal.Run
import proofs.«105109_g26044681683717_cont_sun_m_400_16_alg».proof.Proof.Gen.ReferenceIdeal.Read
import proofs.«105109_g26044681683717_cont_sun_m_400_16_alg».proof.Proof.BodyW
import proofs.«105109_g26044681683717_cont_sun_m_400_16_alg».proof.Proof.KernelValue
import proofs.«105109_g26044681683717_cont_sun_m_400_16_alg».proof.Proof.RefValue

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result at G of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.KernelIdeal.HandValue.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v5_eq, Cert.ReferenceIdeal.RefValue.ref_eq_G,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
